-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x1026 : Shape := ⟨2, ![4096, 1026]⟩
abbrev S1024 : Shape := ⟨1, ![1024]⟩
abbrev S1024x4096 : Shape := ⟨2, ![1024, 4096]⟩
abbrev S5000x4096 : Shape := ⟨2, ![5000, 4096]⟩
abbrev S3072 : Shape := ⟨1, ![3072]⟩
abbrev S2x4096 : Shape := ⟨2, ![2, 4096]⟩
abbrev S1024x60 : Shape := ⟨2, ![1024, 60]⟩
abbrev S60 : Shape := ⟨1, ![60]⟩
abbrev S_ : Shape := ⟨0, ![]⟩

class Facts : Prop where
  bcast_S_S4096x1026 : S_.BroadcastsInDim S4096x1026 (![] : Fin 0 → Fin S4096x1026.rank)
  reducesTo_S4096x1026_S_d0_1 : S4096x1026.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S5000x4096 : S_.BroadcastsInDim S5000x4096 (![] : Fin 0 → Fin S5000x4096.rank)
  reducesTo_S5000x4096_S_d0_1 : S5000x4096.ReducesTo [0, 1] S_
  bcast_S_S3072 : S_.BroadcastsInDim S3072 (![] : Fin 0 → Fin S3072.rank)
  reducesTo_S3072_S_d0 : S3072.ReducesTo [0] S_
  bcast_S_S2x4096 : S_.BroadcastsInDim S2x4096 (![] : Fin 0 → Fin S2x4096.rank)
  reducesTo_S2x4096_S_d0_1 : S2x4096.ReducesTo [0, 1] S_
  bcast_S_S1024x60 : S_.BroadcastsInDim S1024x60 (![] : Fin 0 → Fin S1024x60.rank)
  reducesTo_S1024x60_S_d0_1 : S1024x60.ReducesTo [0, 1] S_
  bcast_S_S60 : S_.BroadcastsInDim S60 (![] : Fin 0 → Fin S60.rank)
  reducesTo_S60_S_d0 : S60.ReducesTo [0] S_

variable [Facts]

def fn_part2 {F : FTy → Type} [FloatOps F] (main_arg8 : FVec F S60 .f32) (main_v33 : IVec S_ 1) : IVec S_ 1 :=
  let main_v34 : FVec F S60 .f32 := Host.absf main_arg8
  let main_cst_12 : FVec F S_ .f32 := constant S_ .f32 0x7F800000#32
  let main_v35 : FVec F S60 .f32 := broadcastInDim S60 ![] bcast_S_S60 main_cst_12
  let main_v36 : IVec S60 1 := cmpf .olt main_v34 main_v35
  let main_c_13 : IVec S_ 1 := constantI S_ 1 1#1
  let main_v37 : IVec S_ 1 := (fun x v => Host.reduce IntOp.andi x v reducesTo_S60_S_d0 h_S_) main_v36 main_c_13
  let main_v38 : IVec S_ 1 := andi main_v33 main_v37
  main_v38

def fn_part1 {F : FTy → Type} [FloatOps F] (main_arg5 : FVec F S3072 .f32) (main_arg6 : FVec F S2x4096 .f32) (main_arg7 : FVec F S1024x60 .f32) (main_arg8 : FVec F S60 .f32) (main_v13 : IVec S_ 1) (main_v16 : IVec S5000x4096 1) : IVec S_ 1 :=
  let main_c_5 : IVec S_ 1 := constantI S_ 1 1#1
  let main_v17 : IVec S_ 1 := (fun x v => Host.reduce IntOp.andi x v reducesTo_S5000x4096_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S2x4096 .f32 := Host.absf main_arg6
  let main_cst_8 : FVec F S_ .f32 := constant S_ .f32 0x7F800000#32
  let main_v25 : FVec F S2x4096 .f32 := broadcastInDim S2x4096 ![] bcast_S_S2x4096 main_cst_8
  let main_v26 : IVec S2x4096 1 := cmpf .olt main_v24 main_v25
  let main_c_9 : IVec S_ 1 := constantI S_ 1 1#1
  let main_v27 : IVec S_ 1 := (fun x v => Host.reduce IntOp.andi x v reducesTo_S2x4096_S_d0_1 h_S_) main_v26 main_c_9
  let main_v28 : IVec S_ 1 := andi main_v23 main_v27
  let main_v29 : FVec F S1024x60 .f32 := Host.absf main_arg7
  let main_cst_10 : FVec F S_ .f32 := constant S_ .f32 0x7F800000#32
  let main_v30 : FVec F S1024x60 .f32 := broadcastInDim S1024x60 ![] bcast_S_S1024x60 main_cst_10
  let main_v31 : IVec S1024x60 1 := cmpf .olt main_v29 main_v30
  let main_c_11 : IVec S_ 1 := constantI S_ 1 1#1
  let main_v32 : IVec S_ 1 := (fun x v => Host.reduce IntOp.andi x v reducesTo_S1024x60_S_d0_1 h_S_) main_v31 main_c_11
  let main_v33 : IVec S_ 1 := andi main_v28 main_v32
  fn_part2 (F := F) main_arg8 main_v33

def fn {F : FTy → Type} [FloatOps F] (main_arg0 : IVec S4096x1 32) (main_arg1 : FVec F S4096x1026 .f32) (main_arg2 : FVec F S1024 .f32) (main_arg3 : FVec F S1024x4096 .f32) (main_arg4 : FVec F S5000x4096 .f32) (main_arg5 : FVec F S3072 .f32) (main_arg6 : FVec F S2x4096 .f32) (main_arg7 : FVec F S1024x60 .f32) (main_arg8 : FVec F S60 .f32) : IVec S_ 1 :=
  let main_v0 : FVec F S4096x1026 .f32 := Host.absf main_arg1
  let main_cst : FVec F S_ .f32 := constant S_ .f32 0x7F800000#32
  let main_v1 : FVec F S4096x1026 .f32 := broadcastInDim S4096x1026 ![] bcast_S_S4096x1026 main_cst
  let main_v2 : IVec S4096x1026 1 := cmpf .olt main_v0 main_v1
  let main_c : IVec S_ 1 := constantI S_ 1 1#1
  let main_v3 : IVec S_ 1 := (fun x v => Host.reduce IntOp.andi x v reducesTo_S4096x1026_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S5000x4096 .f32 := Host.absf main_arg4
  let main_cst_4 : FVec F S_ .f32 := constant S_ .f32 0x7F800000#32
  let main_v15 : FVec F S5000x4096 .f32 := broadcastInDim S5000x4096 ![] bcast_S_S5000x4096 main_cst_4
  let main_v16 : IVec S5000x4096 1 := cmpf .olt main_v14 main_v15
  fn_part1 (F := F) main_arg5 main_arg6 main_arg7 main_arg8 main_v13 main_v16
-- ==== Kernel.lean ====
abbrev S4096x1 : Shape := ⟨2, ![4096, 1]⟩
abbrev S4096x1026 : Shape := ⟨2, ![4096, 1026]⟩
abbrev S1024 : Shape := ⟨1, ![1024]⟩
abbrev S1024x4096 : Shape := ⟨2, ![1024, 4096]⟩
abbrev S5000x4096 : Shape := ⟨2, ![5000, 4096]⟩
abbrev S3072 : Shape := ⟨1, ![3072]⟩
abbrev S2x4096 : Shape := ⟨2, ![2, 4096]⟩
abbrev S1024x60 : Shape := ⟨2, ![1024, 60]⟩
abbrev S60 : Shape := ⟨1, ![60]⟩
abbrev S4096x1024 : Shape := ⟨2, ![4096, 1024]⟩
abbrev S4096x2 : Shape := ⟨2, ![4096, 2]⟩
abbrev S4096 : Shape := ⟨1, ![4096]⟩
abbrev S_ : Shape := ⟨0, ![]⟩
abbrev S4096x4096 : Shape := ⟨2, ![4096, 4096]⟩
abbrev S2048 : Shape := ⟨1, ![2048]⟩
abbrev S1x2048 : Shape := ⟨2, ![1, 2048]⟩
abbrev S1x1024 : Shape := ⟨2, ![1, 1024]⟩
abbrev S1x60 : Shape := ⟨2, ![1, 60]⟩
abbrev S4096x20 : Shape := ⟨2, ![4096, 20]⟩
abbrev S512x1024 : Shape := ⟨2, ![512, 1024]⟩
abbrev S512x4096 : Shape := ⟨2, ![512, 4096]⟩
abbrev S512x20 : Shape := ⟨2, ![512, 20]⟩
abbrev S512x1 : Shape := ⟨2, ![512, 1]⟩
abbrev S1024x2048 : Shape := ⟨2, ![1024, 2048]⟩
abbrev S512x2048 : Shape := ⟨2, ![512, 2048]⟩
abbrev S1024x1024 : Shape := ⟨2, ![1024, 1024]⟩
abbrev S512x60 : Shape := ⟨2, ![512, 60]⟩
abbrev S512 : Shape := ⟨1, ![512]⟩
abbrev S4096x1086 : Shape := ⟨2, ![4096, 1086]⟩

abbrev nBuf : Space → Nat
  | .hbm => 42
  | .vmem => 24
  | .smem => 0
  | _ => 0

abbrev bufTy : (tb : Table) → Fin (tcTables nBuf tb) → BufTy
  | .hbm, ⟨0, _⟩ => ⟨S4096x1, .i32⟩
  | .hbm, ⟨1, _⟩ => ⟨S4096x1026, .f32⟩
  | .hbm, ⟨2, _⟩ => ⟨S1024, .f32⟩
  | .hbm, ⟨3, _⟩ => ⟨S1024x4096, .f32⟩
  | .hbm, ⟨4, _⟩ => ⟨S5000x4096, .f32⟩
  | .hbm, ⟨5, _⟩ => ⟨S3072, .f32⟩
  | .hbm, ⟨6, _⟩ => ⟨S2x4096, .f32⟩
  | .hbm, ⟨7, _⟩ => ⟨S1024x60, .f32⟩
  | .hbm, ⟨8, _⟩ => ⟨S60, .f32⟩
  | .hbm, ⟨9, _⟩ => ⟨S4096x1024, .f32⟩
  | .hbm, ⟨10, _⟩ => ⟨S4096x2, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1024, .f32⟩
  | .hbm, ⟨24, _⟩ => ⟨S2048, .f32⟩
  | .hbm, ⟨25, _⟩ => ⟨S1x2048, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x60, .f32⟩
  | .hbm, ⟨31, _⟩ => ⟨S1024x4096, .bf16⟩
  | .hbm, ⟨32, _⟩ => ⟨S1024x60, .bf16⟩
  | .hbm, ⟨33, _⟩ => ⟨S4096x1024, .f32⟩
  | .hbm, ⟨34, _⟩ => ⟨S4096x20, .f32⟩
  | .hbm, ⟨35, _⟩ => ⟨S4096x20, .f32⟩
  | .hbm, ⟨36, _⟩ => ⟨S4096x20, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1086, .f32⟩
  | .hbm, ⟨41, _⟩ => ⟨S4096x1026, .f32⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S1024x4096, .bf16⟩
  | .local _ .vmem, ⟨5, _⟩ => ⟨S1x2048, .f32⟩
  | .local _ .vmem, ⟨6, _⟩ => ⟨S1x1024, .f32⟩
  | .local _ .vmem, ⟨7, _⟩ => ⟨S1x1024, .f32⟩
  | .local _ .vmem, ⟨8, _⟩ => ⟨S1024x60, .bf16⟩
  | .local _ .vmem, ⟨9, _⟩ => ⟨S1x60, .f32⟩
  | .local _ .vmem, ⟨10, _⟩ => ⟨S512x1024, .f32⟩
  | .local _ .vmem, ⟨11, _⟩ => ⟨S512x1024, .f32⟩
  | .local _ .vmem, ⟨12, _⟩ => ⟨S512x20, .f32⟩
  | .local _ .vmem, ⟨13, _⟩ => ⟨S512x20, .f32⟩
  | .local _ .vmem, ⟨14, _⟩ => ⟨S512x20, .f32⟩
  | .local _ .vmem, ⟨15, _⟩ => ⟨S512x20, .f32⟩
  | .local _ .vmem, ⟨16, _⟩ => ⟨S512x20, .f32⟩
  | .local _ .vmem, ⟨17, _⟩ => ⟨S512x20, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1024, .f32⟩
  | .local _ .vmem, ⟨23, _⟩ => ⟨S512x1024, .f32⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v22_5 : Ref sig .tc := ⟨.hbm, 38, rfl⟩
abbrev main_v22_6 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x60 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x60 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x20 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x20 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x20 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S4096x1026_S4096x1024_0_0 : S4096x1026.Slices ![0, 0] S4096x1024
  slices_S4096x1026_S4096x2_0_1024 : S4096x1026.Slices ![0, 1024] S4096x2
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S3072_S1024_0 : S3072.Slices ![0] S1024
  concatenates_S1024_S1024_S2048_d0 : Shape.Concatenates [S1024, S1024] S2048 0
  shapeCasts_S2048_S1x2048 : S2048.ShapeCasts S1x2048
  slices_S3072_S1024_1024 : S3072.Slices ![1024] S1024
  shapeCasts_S1024_S1x1024 : S1024.ShapeCasts S1x1024
  slices_S3072_S1024_2048 : S3072.Slices ![2048] S1024
  shapeCasts_S60_S1x60 : S60.ShapeCasts S1x60
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x60_S1024x60_0_0 : ∀ a, (![0, 0] : Fin 2 → Nat) a + S1024x60.size a ≤ S1024x60.size a
  h_S1024x60 : 0 < S1024x60.numel
  shapeCasts_S1024x60_S1024x60 : S1024x60.ShapeCasts S1024x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  slices_S1024x4096_o0_0_S1024x2048 : S1024x4096.Slices ![0, 0] S1024x2048
  slices_S512x4096_o0_0_S512x2048 : S512x4096.Slices ![0, 0] S512x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  slices_S1024x4096_o0_2048_S1024x1024 : S1024x4096.Slices ![0, 2048] S1024x1024
  slices_S512x4096_o0_2048_S512x1024 : S512x4096.Slices ![0, 2048] S512x1024
  broadcasts_S1x1024_S512x1024 : S1x1024.Broadcasts S512x1024
  slices_S1024x4096_o0_3072_S1024x1024 : S1024x4096.Slices ![0, 3072] S1024x1024
  slices_S512x4096_o0_3072_S512x1024 : S512x4096.Slices ![0, 3072] S512x1024
  broadcasts_S1x60_S512x60 : S1x60.Broadcasts S512x60
  slices_S512x60_o0_0_S512x20 : S512x60.Slices ![0, 0] S512x20
  slices_S512x60_o0_20_S512x20 : S512x60.Slices ![0, 20] S512x20
  slices_S512x60_o0_40_S512x20 : S512x60.Slices ![0, 40] S512x20
  reduces_S512x20_S512 : S512x20.Reduces [1] S512
  shapeCasts_S512_S512x1 : S512.ShapeCasts S512x1
  broadcasts_S512x1_S512x20 : S512x1.Broadcasts S512x20
  inb_S512x20_S512x20_0_0 : ∀ a, (![0, 0] : Fin 2 → Nat) a + S512x20.size a ≤ S512x20.size a
  h_S512x20 : 0 < S512x20.numel
  inb_S512x1_S512x1_0_0 : ∀ a, (![0, 0] : Fin 2 → Nat) a + S512x1.size a ≤ S512x1.size a
  h_S512x1 : 0 < S512x1.numel
  concatenates_S4096x1024_S4096x20_S4096x20_S4096x20_S4096x1_S4096x1_S4096x1086_d1 : Shape.Concatenates [S4096x1024, S4096x20, S4096x20, S4096x20, S4096x1, S4096x1] S4096x1086 1
  concatenates_S4096x1024_S4096x1_S4096x1_S4096x1026_d1 : Shape.Concatenates [S4096x1024, S4096x1, S4096x1] S4096x1026 1
  gather_S5000x4096_S4096x1_S4096x4096_1_0_n_n_0_1_14096_wf : GatherDims.WF S5000x4096 S4096x1 S4096x4096 [1] [0] [] [0] [] 1 ![1, 4096]
  dot_S4096x2_S2x4096_S4096x4096_1_0_0_1_n_n_wf : DotDims.WF S4096x2 S2x4096 S4096x4096 [1] [0] [0] [1] [] []
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  dot_S512x1024_S1024x60_S512x60_1_0_0_1_n_n_wf : DotDims.WF S512x1024 S1024x60 S512x60 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x60.size a ≤ S1024x60.size a
  hwx0_6 : ∀ i : grid0.Coords, EltTy.bits .bf16 = 32 ∨ (Rect.block (s := S1024x60) S1024x60.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x60.size a ≤ S1x60.size a
  hwx0_7 : ∀ i : grid0.Coords, EltTy.bits .f32 = 32 ∨ (Rect.block (s := S1x60) S1x60.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .f32 = 32 ∨ (Rect.block (s := S4096x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x20.size a ≤ S4096x20.size a
  hwx0_9 : ∀ i : grid0.Coords, EltTy.bits .f32 = 32 ∨ (Rect.block (s := S4096x20) S512x20.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x20.size a ≤ S4096x20.size a
  hwx0_10 : ∀ i : grid0.Coords, EltTy.bits .f32 = 32 ∨ (Rect.block (s := S4096x20) S512x20.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x20.size a ≤ S4096x20.size a
  hwx0_11 : ∀ i : grid0.Coords, EltTy.bits .f32 = 32 ∨ (Rect.block (s := S4096x20) S512x20.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S4096x1.size a
  hwx0_12 : ∀ i : grid0.Coords, EltTy.bits .f32 = 32 ∨ (Rect.block (s := S4096x1) S512x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S4096x1.size a
  hwx0_13 : ∀ i : grid0.Coords, EltTy.bits .f32 = 32 ∨ (Rect.block (s := S4096x1) S512x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S4096x1024.size a
  hwx0_14 : ∀ i : grid0.Coords, EltTy.bits .f32 = 32 ∨ (Rect.block (s := S4096x1024) S512x1024.size (cc0_transform_14 i) (hinb0_14 i)).WholeWords (EltTy.packing .f32)

variable [Facts₀]

def gather_S5000x4096_S4096x1_S4096x4096_1_0_n_n_0_1_14096 : GatherDims S5000x4096 S4096x1 S4096x4096 where
  offsetDims := [1]
  collapsedSliceDims := [0]
  operandBatchingDims := []
  startIndicesBatchingDims := []
  startIndexMap := [0]
  indexVectorDim := 1
  sliceSizes := ![1, 4096]
  wf := gather_S5000x4096_S4096x1_S4096x4096_1_0_n_n_0_1_14096_wf
def dot_S4096x2_S2x4096_S4096x4096_1_0_0_1_n_n : DotDims S4096x2 S2x4096 S4096x4096 where
  lhsContracting := [1]
  rhsContracting := [0]
  lhsNonContracting := [0]
  rhsNonContracting := [1]
  lhsBatch := []
  rhsBatch := []
  wf := dot_S4096x2_S2x4096_S4096x4096_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x60_S512x60_1_0_0_1_n_n : DotDims S512x1024 S1024x60 S512x60 where
  lhsContracting := [1]
  rhsContracting := [0]
  lhsNonContracting := [0]
  rhsNonContracting := [1]
  lhsBatch := []
  rhsBatch := []
  wf := dot_S512x1024_S1024x60_S512x60_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1024x60.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x60.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_0) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22_1) S512x20.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_2) S512x20.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22_3) S512x20.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_4) S512x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v22_5) S512x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v22_6) S512x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x1 : Shape := ⟨2, ![4096, 1]⟩
abbrev S4096x1026 : Shape := ⟨2, ![4096, 1026]⟩
abbrev S1024 : Shape := ⟨1, ![1024]⟩
abbrev S1024x4096 : Shape := ⟨2, ![1024, 4096]⟩
abbrev S5000x4096 : Shape := ⟨2, ![5000, 4096]⟩
abbrev S3072 : Shape := ⟨1, ![3072]⟩
abbrev S2x4096 : Shape := ⟨2, ![2, 4096]⟩
abbrev S1024x60 : Shape := ⟨2, ![1024, 60]⟩
abbrev S60 : Shape := ⟨1, ![60]⟩
abbrev S4096x1024 : Shape := ⟨2, ![4096, 1024]⟩
abbrev S4096x2 : Shape := ⟨2, ![4096, 2]⟩
abbrev S4096 : Shape := ⟨1, ![4096]⟩
abbrev S_ : Shape := ⟨0, ![]⟩
abbrev S4096x4096 : Shape := ⟨2, ![4096, 4096]⟩
abbrev S1024x2048 : Shape := ⟨2, ![1024, 2048]⟩
abbrev S4096x2048 : Shape := ⟨2, ![4096, 2048]⟩
abbrev S2048 : Shape := ⟨1, ![2048]⟩
abbrev S1x2048 : Shape := ⟨2, ![1, 2048]⟩
abbrev S1024x1024 : Shape := ⟨2, ![1024, 1024]⟩
abbrev S1x1024 : Shape := ⟨2, ![1, 1024]⟩
abbrev S4096x60 : Shape := ⟨2, ![4096, 60]⟩
abbrev S1x60 : Shape := ⟨2, ![1, 60]⟩
abbrev S4096x20 : Shape := ⟨2, ![4096, 20]⟩
abbrev S4096x1086 : Shape := ⟨2, ![4096, 1086]⟩

abbrev nBuf : Space → Nat
  | .hbm => 106
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S4096x1026, .f32⟩
  | .hbm, ⟨2, _⟩ => ⟨S1024, .f32⟩
  | .hbm, ⟨3, _⟩ => ⟨S1024x4096, .f32⟩
  | .hbm, ⟨4, _⟩ => ⟨S5000x4096, .f32⟩
  | .hbm, ⟨5, _⟩ => ⟨S3072, .f32⟩
  | .hbm, ⟨6, _⟩ => ⟨S2x4096, .f32⟩
  | .hbm, ⟨7, _⟩ => ⟨S1024x60, .f32⟩
  | .hbm, ⟨8, _⟩ => ⟨S60, .f32⟩
  | .hbm, ⟨9, _⟩ => ⟨S4096x1024, .f32⟩
  | .hbm, ⟨10, _⟩ => ⟨S4096x2, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1024x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1024, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1024x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1024x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x60, .f32⟩
  | .hbm, ⟨76, _⟩ => ⟨S1x60, .f32⟩
  | .hbm, ⟨77, _⟩ => ⟨S4096x60, .f32⟩
  | .hbm, ⟨78, _⟩ => ⟨S4096x60, .f32⟩
  | .hbm, ⟨79, _⟩ => ⟨S4096x20, .f32⟩
  | .hbm, ⟨80, _⟩ => ⟨S4096x20, .f32⟩
  | .hbm, ⟨81, _⟩ => ⟨S4096x20, .f32⟩
  | .hbm, ⟨82, _⟩ => ⟨S4096x20, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096x20, .f32⟩
  | .hbm, ⟨87, _⟩ => ⟨S4096x20, .f32⟩
  | .hbm, ⟨88, _⟩ => ⟨S_, .f32⟩
  | .hbm, ⟨89, _⟩ => ⟨S4096x20, .f32⟩
  | .hbm, ⟨90, _⟩ => ⟨S4096x20, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x20, .f32⟩
  | .hbm, ⟨95, _⟩ => ⟨S4096x20, .f32⟩
  | .hbm, ⟨96, _⟩ => ⟨S4096x20, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x20, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1086, .f32⟩
  | .hbm, ⟨105, _⟩ => ⟨S4096x1026, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_cst_6 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_8 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]

class Facts₀ : Prop where
  slices_S4096x1026_S4096x1024_0_0 : S4096x1026.Slices ![0, 0] S4096x1024
  slices_S4096x1026_S4096x2_0_1024 : S4096x1026.Slices ![0, 1024] S4096x2
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S1024x4096_S1024x2048_0_0 : S1024x4096.Slices ![0, 0] S1024x2048
  slices_S4096x4096_S4096x2048_0_0 : S4096x4096.Slices ![0, 0] S4096x2048
  slices_S3072_S1024_0 : S3072.Slices ![0] S1024
  concatenates_S1024_S1024_S2048_d0 : Shape.Concatenates [S1024, S1024] S2048 0
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  slices_S4096x2048_S4096x1024_0_0 : S4096x2048.Slices ![0, 0] S4096x1024
  bcast_S_S4096x1024 : S_.BroadcastsInDim S4096x1024 (![] : Fin 0 → Fin S4096x1024.rank)
  slices_S4096x2048_S4096x1024_0_1024 : S4096x2048.Slices ![0, 1024] S4096x1024
  slices_S1024x4096_S1024x1024_0_2048 : S1024x4096.Slices ![0, 2048] S1024x1024
  slices_S4096x4096_S4096x1024_0_2048 : S4096x4096.Slices ![0, 2048] S4096x1024
  slices_S3072_S1024_1024 : S3072.Slices ![1024] S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S1024x4096_S1024x1024_0_3072 : S1024x4096.Slices ![0, 3072] S1024x1024
  slices_S4096x4096_S4096x1024_0_3072 : S4096x4096.Slices ![0, 3072] S4096x1024
  slices_S3072_S1024_2048 : S3072.Slices ![2048] S1024
  bcast_S60_S1x60_1 : S60.BroadcastsInDim S1x60 (![1] : Fin 1 → Fin S1x60.rank)
  bcast_S1x60_S4096x60_0_1 : S1x60.BroadcastsInDim S4096x60 (![0, 1] : Fin 2 → Fin S4096x60.rank)
  slices_S4096x60_S4096x20_0_0 : S4096x60.Slices ![0, 0] S4096x20
  slices_S4096x60_S4096x20_0_20 : S4096x60.Slices ![0, 20] S4096x20
  slices_S4096x60_S4096x20_0_40 : S4096x60.Slices ![0, 40] S4096x20
  bcast_S_S4096x20 : S_.BroadcastsInDim S4096x20 (![] : Fin 0 → Fin S4096x20.rank)
  reducesTo_S4096x20_S4096_d1 : S4096x20.ReducesTo [1] S4096
  h_S_ : 0 < S_.numel
  bcast_S4096x1_S4096x20_0_1 : S4096x1.BroadcastsInDim S4096x20 (![0, 1] : Fin 2 → Fin S4096x20.rank)
  concatenates_S4096x1024_S4096x20_S4096x20_S4096x20_S4096x1_S4096x1_S4096x1086_d1 : Shape.Concatenates [S4096x1024, S4096x20, S4096x20, S4096x20, S4096x1, S4096x1] S4096x1086 1
  concatenates_S4096x1024_S4096x1_S4096x1_S4096x1026_d1 : Shape.Concatenates [S4096x1024, S4096x1, S4096x1] S4096x1026 1
  gather_S5000x4096_S4096x1_S4096x4096_1_0_n_n_0_1_14096_wf : GatherDims.WF S5000x4096 S4096x1 S4096x4096 [1] [0] [] [0] [] 1 ![1, 4096]
  dot_S4096x2_S2x4096_S4096x4096_1_0_0_1_n_n_wf : DotDims.WF S4096x2 S2x4096 S4096x4096 [1] [0] [0] [1] [] []
  dot_S4096x1024_S1024x2048_S4096x2048_1_0_0_1_n_n_wf : DotDims.WF S4096x1024 S1024x2048 S4096x2048 [1] [0] [0] [1] [] []
  dot_S4096x1024_S1024x1024_S4096x1024_1_0_0_1_n_n_wf : DotDims.WF S4096x1024 S1024x1024 S4096x1024 [1] [0] [0] [1] [] []
  dot_S4096x1024_S1024x60_S4096x60_1_0_0_1_n_n_wf : DotDims.WF S4096x1024 S1024x60 S4096x60 [1] [0] [0] [1] [] []

variable [Facts₀]

def gather_S5000x4096_S4096x1_S4096x4096_1_0_n_n_0_1_14096 : GatherDims S5000x4096 S4096x1 S4096x4096 where
  offsetDims := [1]
  collapsedSliceDims := [0]
  operandBatchingDims := []
  startIndicesBatchingDims := []
  startIndexMap := [0]
  indexVectorDim := 1
  sliceSizes := ![1, 4096]
  wf := gather_S5000x4096_S4096x1_S4096x4096_1_0_n_n_0_1_14096_wf
def dot_S4096x2_S2x4096_S4096x4096_1_0_0_1_n_n : DotDims S4096x2 S2x4096 S4096x4096 where
  lhsContracting := [1]
  rhsContracting := [0]
  lhsNonContracting := [0]
  rhsNonContracting := [1]
  lhsBatch := []
  rhsBatch := []
  wf := dot_S4096x2_S2x4096_S4096x4096_1_0_0_1_n_n_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x60_S4096x60_1_0_0_1_n_n : DotDims S4096x1024 S1024x60 S4096x60 where
  lhsContracting := [1]
  rhsContracting := [0]
  lhsNonContracting := [0]
  rhsNonContracting := [1]
  lhsBatch := []
  rhsBatch := []
  wf := dot_S4096x1024_S1024x60_S4096x60_1_0_0_1_n_n_wf

class Facts : Prop extends Facts₀ where

variable [Facts]
-- ==== Proof.RegionK.lean ====
/-
  The region of `Kernel`: what each of its fifteen windows holds around the body.

  The arrays are as the region finds them (`V`: the launch memory after the host operations before the region).
  Window `w`'s block at grid point `t` is `iblk w t`: windows 0 and 1 (the previous state and the input projection)
  are cut into eight blocks of 512 rows, windows 2 to 7 (the weights and biases) are whole.  The body loads the eight
  input blocks whole, computes, and stores one whole block into each of the seven output windows 8 to 14; so each output
  buffer after the body is the one stored value — the output layer, the mixture weights, the two coordinate slices,
  the two predicted coordinates and the new state — as the skeleton's pure terms of the eight loaded blocks.
-/
import proofs.«139136_j86492051407610_1_alg».proof.Proof.Gen.Kernel.Launch
import proofs.«139136_j86492051407610_1_alg».proof.Proof.Gen.Kernel.Skeleton
import proofs.«139136_j86492051407610_1_alg».proof.Proof.Gen.Kernel.Points
import Idealize.ShloMosaic.Lib.Pipeline.FrameBody
import Idealize.ShloMosaic.Lib.Pipeline.FrameSuffix

set_option maxRecDepth 16384

noncomputable section

namespace Cert.Kernel.Fr

open Cert.Kernel Cert.Kernel.Gen
open Idealize.ShloMosaic Idealize.ShloMosaic.TcCoe
open Idealize.SL Idealize.SL.RA Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: each load and each store takes a whole buffer -/

abbrev rA : Rect S512x1024 := Rect.unit (s := S512x1024) ![0, 0] S512x1024.size inb_S512x1024_S512x1024_0_0
abbrev rB : Rect S512x4096 := Rect.unit (s := S512x4096) ![0, 0] S512x4096.size inb_S512x4096_S512x4096_0_0
abbrev rC : Rect S1024x4096 := Rect.unit (s := S1024x4096) ![0, 0] S1024x4096.size inb_S1024x4096_S1024x4096_0_0
abbrev rD : Rect S1x2048 := Rect.unit (s := S1x2048) ![0, 0] S1x2048.size inb_S1x2048_S1x2048_0_0
abbrev rE : Rect S1x1024 := Rect.unit (s := S1x1024) ![0, 0] S1x1024.size inb_S1x1024_S1x1024_0_0
abbrev rG : Rect S1024x60 := Rect.unit (s := S1024x60) ![0, 0] S1024x60.size inb_S1024x60_S1024x60_0_0
abbrev rH : Rect S1x60 := Rect.unit (s := S1x60) ![0, 0] S1x60.size inb_S1x60_S1x60_0_0
abbrev rI : Rect S512x20 := Rect.unit (s := S512x20) ![0, 0] S512x20.size inb_S512x20_S512x20_0_0
abbrev rJ : Rect S512x1 := Rect.unit (s := S512x1) ![0, 0] S512x1.size inb_S512x1_S512x1_0_0

/-! ## What the body leaves in each output window's buffer -/

/-- Window 8 (the output layer `o`). -/
def out0_8 (x0 : Vec F S512x1024 .f32) (x1 : Vec F S512x4096 .f32) (x2 : Vec F S1024x4096 .bf16) (x3 : Vec F S1x2048 .f32) (x4 : Vec F S1x1024 .f32) (x5 : Vec F S1x1024 .f32) : Vec F S512x1024 .f32 :=
  View.canon [⟨rA, k0_pay12 (k0_pay2 (View.ld x1 rB)) (k0_pay3 (View.ld x2 rC)) (k0_pay4 (View.ld x5 rE)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 9 (the mixture weights). -/
def out0_9 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x20 .f32 :=
  View.canon [⟨rI, k0_pay16 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 10 (the components' first coordinates). -/
def out0_10 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x20 .f32 :=
  View.canon [⟨rI, k0_pay14 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 11 (the components' second coordinates). -/
def out0_11 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x20 .f32 :=
  View.canon [⟨rI, k0_pay15 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 12 (the predicted first coordinate). -/
def out0_12 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x1 .f32 :=
  View.canon [⟨rJ, k0_pay17 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 13 (the predicted second coordinate). -/
def out0_13 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x1 .f32 :=
  View.canon [⟨rJ, k0_pay18 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 14 (the new state). -/
def out0_14 (x0 : Vec F S512x1024 .f32) (x1 : Vec F S512x4096 .f32) (x2 : Vec F S1024x4096 .bf16) (x3 : Vec F S1x2048 .f32) (x4 : Vec F S1x1024 .f32) : Vec F S512x1024 .f32 :=
  View.canon [⟨rA, k0_pay11 (k0_pay9 (View.ld x0 rA) (View.ld x1 rB) (View.ld x2 rC) (View.ld x3 rD)) (k0_pay10 (View.ld x0 rA) (View.ld x1 rB) (View.ld x2 rC) (View.ld x3 rD) (View.ld x4 rE))⟩]

/-! ## The pipeline's proof data -/

/-- On core `c`: the arrays as the region finds them; after the body at point `t` each input's buffer at its block and
    each output's at the stored value of the input blocks; nothing of the kernel's own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t)
    | ⟨12, _⟩ => out0_12 (iblk m c 0 t) (iblk m c 1 t) (iblk m c 2 t) (iblk m c 3 t) (iblk m c 4 t) (iblk m c 5 t) (iblk m c 6 t) (iblk m c 7 t)
    | ⟨13, _⟩ => out0_13 (iblk m c 0 t) (iblk m c 1 t) (iblk m c 2 t) (iblk m c 3 t) (iblk m c 4 t) (iblk m c 5 t) (iblk m c 6 t) (iblk m c 7 t)
    | ⟨14, _⟩ => out0_14 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = out0_14 (iblk m c 0 t) (iblk m c 1 t) (iblk m c 2 t) (iblk m c 3 t) (iblk m c 4 t) := by dsimp only [dats]

end Cert.Kernel.Fr

end
-- ==== Proof.FrameK.lean ====
/-
  The frame of `Kernel`: every weakly fair execution of @main terminates, nothing faults, and the nine argument arrays
  end as they were launched.

  @main is host operations, one region, two host operations (the concatenations of the region's results).  The
  argument arrays are written by no host operation and staged by no window, so they end as launched once the region
  runs; and the region runs because its body does at every grid point: handed the eight input blocks and seven output
  buffers, it loads the inputs whole, stores one whole block into each output and touches nothing else, so each
  output buffer ends at the one stored value (a single store covering the buffer).  The run also names what every
  output array holds afterwards, which the value claim reads.
-/
import proofs.«139136_j86492051407610_1_alg».proof.Proof.RegionK
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two concatenations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two concatenations touch the pipeline's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## Each input window's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every unstaged buffer as the two concatenations leave it: the nine argument arrays,
    which nothing stages and nothing writes, end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c))⟩) h

/-! ## The body's one store into each output covers its buffer -/

theorem cover0_8 (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y
theorem cover0_9 (p0 : Vec F S512x20 .f32) (y : S512x20.Idx) :
    ∃ pc ∈ ([⟨rI, p0⟩] : List (View.Piece (Elt F) S512x20 .f32)), y ∈ pc.1.set :=
  View.cover_of_tiled [⟨rI, p0⟩] S512x20.size (by rfl) y
theorem cover0_10 (p0 : Vec F S512x20 .f32) (y : S512x20.Idx) :
    ∃ pc ∈ ([⟨rI, p0⟩] : List (View.Piece (Elt F) S512x20 .f32)), y ∈ pc.1.set :=
  View.cover_of_tiled [⟨rI, p0⟩] S512x20.size (by rfl) y
theorem cover0_11 (p0 : Vec F S512x20 .f32) (y : S512x20.Idx) :
    ∃ pc ∈ ([⟨rI, p0⟩] : List (View.Piece (Elt F) S512x20 .f32)), y ∈ pc.1.set :=
  View.cover_of_tiled [⟨rI, p0⟩] S512x20.size (by rfl) y
theorem cover0_12 (p0 : Vec F S512x1 .f32) (y : S512x1.Idx) :
    ∃ pc ∈ ([⟨rJ, p0⟩] : List (View.Piece (Elt F) S512x1 .f32)), y ∈ pc.1.set :=
  View.cover_of_tiled [⟨rJ, p0⟩] S512x1.size (by rfl) y
theorem cover0_13 (p0 : Vec F S512x1 .f32) (y : S512x1.Idx) :
    ∃ pc ∈ ([⟨rJ, p0⟩] : List (View.Piece (Elt F) S512x1 .f32)), y ∈ pc.1.set :=
  View.cover_of_tiled [⟨rJ, p0⟩] S512x1.size (by rfl) y
theorem cover0_14 (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 4000000 in
/-- The body on whole staging memrefs, the inputs' at contents `x0 … x7` and the outputs' at anything, runs to the
    continuation holding the inputs' as they were and each output's at the value stored into it. -/
theorem sound_kernel (c : Dev nD) (E : Set ℕ) (i : grid0.Coords) (arg1 : Memref sig .tc .vmem S512x1024 .f32) (harg1 : arg1.IsWhole) (arg2 : Memref sig .tc .vmem S512x4096 .f32) (harg2 : arg2.IsWhole) (arg3 : Memref sig .tc .vmem S1024x4096 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x60 .bf16) (harg7 : arg7.IsWhole) (arg8 : Memref sig .tc .vmem S1x60 .f32) (harg8 : arg8.IsWhole) (arg9 : Memref sig .tc .vmem S512x1024 .f32) (harg9 : arg9.IsWhole) (arg10 : Memref sig .tc .vmem S512x20 .f32) (harg10 : arg10.IsWhole) (arg11 : Memref sig .tc .vmem S512x20 .f32) (harg11 : arg11.IsWhole) (arg12 : Memref sig .tc .vmem S512x20 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole)
    (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7) ∗ owns (c : Thread nD τ) arg13 fullShare (out0_12 x0 x1 x2 x3 x4 x5 x6 x7) ∗ owns (c : Thread nD τ) arg14 fullShare (out0_13 x0 x1 x2 x3 x4 x5 x6 x7) ∗ owns (c : Thread nD τ) arg15 fullShare (out0_14 x0 x1 x2 x3 x4)) -∗ K ⟨⟩))
      ⊢ wp frame (wpE (defs₀ (F := F)) Variants.none c none) E (cc0_gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_gru_kernel_eq_skeleton]; unfold cc0_gru_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  isplitl [H12]
  · iexists _; isplitr
    swap; · iexact H12
    ipureintro
    try dsimp only
    exact View.read_writes_eq_canon _ _ _ (cover0_12 _)
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-! ## The body obligation -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the two concatenations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.RegionKI.lean ====
/-
  The region of `KernelIdeal`: what each of its fifteen windows holds around the body.

  The arrays are as the region finds them (`V`: the launch memory after the host operations before the region).
  Window `w`'s block at grid point `t` is `iblk w t`: windows 0 and 1 (the previous state and the input projection)
  are cut into eight blocks of 512 rows, windows 2 to 7 (the weights and biases) are whole.  The body loads the eight
  input blocks whole, computes, and stores one whole block into each of the seven output windows 8 to 14; so each output
  buffer after the body is the one stored value — the output layer, the mixture weights, the two coordinate slices,
  the two predicted coordinates and the new state — as the skeleton's pure terms of the eight loaded blocks.
-/
import proofs.«139136_j86492051407610_1_alg».proof.Proof.Gen.KernelIdeal.Launch
import proofs.«139136_j86492051407610_1_alg».proof.Proof.Gen.KernelIdeal.Skeleton
import proofs.«139136_j86492051407610_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: each load and each store takes a whole buffer -/

abbrev rA : Rect S512x1024 := Rect.unit (s := S512x1024) ![0, 0] S512x1024.size inb_S512x1024_S512x1024_0_0
abbrev rB : Rect S512x4096 := Rect.unit (s := S512x4096) ![0, 0] S512x4096.size inb_S512x4096_S512x4096_0_0
abbrev rC : Rect S1024x4096 := Rect.unit (s := S1024x4096) ![0, 0] S1024x4096.size inb_S1024x4096_S1024x4096_0_0
abbrev rD : Rect S1x2048 := Rect.unit (s := S1x2048) ![0, 0] S1x2048.size inb_S1x2048_S1x2048_0_0
abbrev rE : Rect S1x1024 := Rect.unit (s := S1x1024) ![0, 0] S1x1024.size inb_S1x1024_S1x1024_0_0
abbrev rG : Rect S1024x60 := Rect.unit (s := S1024x60) ![0, 0] S1024x60.size inb_S1024x60_S1024x60_0_0
abbrev rH : Rect S1x60 := Rect.unit (s := S1x60) ![0, 0] S1x60.size inb_S1x60_S1x60_0_0
abbrev rI : Rect S512x20 := Rect.unit (s := S512x20) ![0, 0] S512x20.size inb_S512x20_S512x20_0_0
abbrev rJ : Rect S512x1 := Rect.unit (s := S512x1) ![0, 0] S512x1.size inb_S512x1_S512x1_0_0

/-! ## What the body leaves in each output window's buffer -/

/-- Window 8 (the output layer `o`). -/
def out0_8 (x0 : Vec F S512x1024 .f32) (x1 : Vec F S512x4096 .f32) (x2 : Vec F S1024x4096 .bf16) (x3 : Vec F S1x2048 .f32) (x4 : Vec F S1x1024 .f32) (x5 : Vec F S1x1024 .f32) : Vec F S512x1024 .f32 :=
  View.canon [⟨rA, k0_pay12 (k0_pay2 (View.ld x1 rB)) (k0_pay3 (View.ld x2 rC)) (k0_pay4 (View.ld x5 rE)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 9 (the mixture weights). -/
def out0_9 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x20 .f32 :=
  View.canon [⟨rI, k0_pay16 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 10 (the components' first coordinates). -/
def out0_10 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x20 .f32 :=
  View.canon [⟨rI, k0_pay14 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 11 (the components' second coordinates). -/
def out0_11 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x20 .f32 :=
  View.canon [⟨rI, k0_pay15 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 12 (the predicted first coordinate). -/
def out0_12 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x1 .f32 :=
  View.canon [⟨rJ, k0_pay17 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 13 (the predicted second coordinate). -/
def out0_13 (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) : Vec F S512x1 .f32 :=
  View.canon [⟨rJ, k0_pay18 (k0_pay2 (View.ld x1 rB)) (k0_pay3 (View.ld x2 rC)) (k0_pay4 (View.ld x5 rE)) (k0_pay5 (View.ld x6 rG)) (k0_pay6 (View.ld x7 rH)) (k0_pay9 (View.ld x0 rA) (View.ld x1 rB) (View.ld x2 rC) (View.ld x3 rD)) (k0_pay10 (View.ld x0 rA) (View.ld x1 rB) (View.ld x2 rC) (View.ld x3 rD) (View.ld x4 rE))⟩]
/-- Window 14 (the new state). -/
def out0_14 (x0 : Vec F S512x1024 .f32) (x1 : Vec F S512x4096 .f32) (x2 : Vec F S1024x4096 .bf16) (x3 : Vec F S1x2048 .f32) (x4 : Vec F S1x1024 .f32) : Vec F S512x1024 .f32 :=
  View.canon [⟨rA, k0_pay11 (k0_pay9 (View.ld x0 rA) (View.ld x1 rB) (View.ld x2 rC) (View.ld x3 rD)) (k0_pay10 (View.ld x0 rA) (View.ld x1 rB) (View.ld x2 rC) (View.ld x3 rD) (View.ld x4 rE))⟩]

/-! ## The pipeline's proof data -/

/-- On core `c`: the arrays as the region finds them; after the body at point `t` each input's buffer at its block and
    each output's at the stored value of the input blocks; nothing of the kernel's own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t)
    | ⟨12, _⟩ => out0_12 (iblk m c 0 t) (iblk m c 1 t) (iblk m c 2 t) (iblk m c 3 t) (iblk m c 4 t) (iblk m c 5 t) (iblk m c 6 t) (iblk m c 7 t)
    | ⟨13, _⟩ => out0_13 (iblk m c 0 t) (iblk m c 1 t) (iblk m c 2 t) (iblk m c 3 t) (iblk m c 4 t) (iblk m c 5 t) (iblk m c 6 t) (iblk m c 7 t)
    | ⟨14, _⟩ => out0_14 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = out0_14 (iblk m c 0 t) (iblk m c 1 t) (iblk m c 2 t) (iblk m c 3 t) (iblk m c 4 t) := by dsimp only [dats]

end Cert.KernelIdeal.Fr

end
-- ==== Proof.FrameKI.lean ====
/-
  The frame of `KernelIdeal`: every weakly fair execution of @main terminates, nothing faults, and the nine argument arrays
  end as they were launched.

  @main is host operations, one region, two host operations (the concatenations of the region's results).  The
  argument arrays are written by no host operation and staged by no window, so they end as launched once the region
  runs; and the region runs because its body does at every grid point: handed the eight input blocks and seven output
  buffers, it loads the inputs whole, stores one whole block into each output and touches nothing else, so each
  output buffer ends at the one stored value (a single store covering the buffer).  The run also names what every
  output array holds afterwards, which the value claim reads.
-/
import proofs.«139136_j86492051407610_1_alg».proof.Proof.RegionKI
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two concatenations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two concatenations touch the pipeline's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does either concatenation: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## Each input window's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every unstaged buffer as the two concatenations leave it: the nine argument arrays,
    which nothing stages and nothing writes, end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c))⟩) h

/-! ## The body's one store into each output covers its buffer -/

theorem cover0_8 (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y
theorem cover0_9 (p0 : Vec F S512x20 .f32) (y : S512x20.Idx) :
    ∃ pc ∈ ([⟨rI, p0⟩] : List (View.Piece (Elt F) S512x20 .f32)), y ∈ pc.1.set :=
  View.cover_of_tiled [⟨rI, p0⟩] S512x20.size (by rfl) y
theorem cover0_10 (p0 : Vec F S512x20 .f32) (y : S512x20.Idx) :
    ∃ pc ∈ ([⟨rI, p0⟩] : List (View.Piece (Elt F) S512x20 .f32)), y ∈ pc.1.set :=
  View.cover_of_tiled [⟨rI, p0⟩] S512x20.size (by rfl) y
theorem cover0_11 (p0 : Vec F S512x20 .f32) (y : S512x20.Idx) :
    ∃ pc ∈ ([⟨rI, p0⟩] : List (View.Piece (Elt F) S512x20 .f32)), y ∈ pc.1.set :=
  View.cover_of_tiled [⟨rI, p0⟩] S512x20.size (by rfl) y
theorem cover0_12 (p0 : Vec F S512x1 .f32) (y : S512x1.Idx) :
    ∃ pc ∈ ([⟨rJ, p0⟩] : List (View.Piece (Elt F) S512x1 .f32)), y ∈ pc.1.set :=
  View.cover_of_tiled [⟨rJ, p0⟩] S512x1.size (by rfl) y
theorem cover0_13 (p0 : Vec F S512x1 .f32) (y : S512x1.Idx) :
    ∃ pc ∈ ([⟨rJ, p0⟩] : List (View.Piece (Elt F) S512x1 .f32)), y ∈ pc.1.set :=
  View.cover_of_tiled [⟨rJ, p0⟩] S512x1.size (by rfl) y
theorem cover0_14 (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 4000000 in
/-- The body on whole staging memrefs, the inputs' at contents `x0 … x7` and the outputs' at anything, runs to the
    continuation holding the inputs' as they were and each output's at the value stored into it. -/
theorem sound_kernel (c : Dev nD) (E : Set ℕ) (i : grid0.Coords) (arg1 : Memref sig .tc .vmem S512x1024 .f32) (harg1 : arg1.IsWhole) (arg2 : Memref sig .tc .vmem S512x4096 .f32) (harg2 : arg2.IsWhole) (arg3 : Memref sig .tc .vmem S1024x4096 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x60 .bf16) (harg7 : arg7.IsWhole) (arg8 : Memref sig .tc .vmem S1x60 .f32) (harg8 : arg8.IsWhole) (arg9 : Memref sig .tc .vmem S512x1024 .f32) (harg9 : arg9.IsWhole) (arg10 : Memref sig .tc .vmem S512x20 .f32) (harg10 : arg10.IsWhole) (arg11 : Memref sig .tc .vmem S512x20 .f32) (harg11 : arg11.IsWhole) (arg12 : Memref sig .tc .vmem S512x20 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1024 .f32) (harg15 : arg15.IsWhole)
    (x0 : Vec F S512x1024 .f32) (x1 : Vec F S512x4096 .f32) (x2 : Vec F S1024x4096 .bf16) (x3 : Vec F S1x2048 .f32) (x4 : Vec F S1x1024 .f32) (x5 : Vec F S1x1024 .f32) (x6 : Vec F S1024x60 .bf16) (x7 : Vec F S1x60 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7) ∗ owns (c : Thread nD τ) arg13 fullShare (out0_12 x0 x1 x2 x3 x4 x5 x6 x7) ∗ owns (c : Thread nD τ) arg14 fullShare (out0_13 x0 x1 x2 x3 x4 x5 x6 x7) ∗ owns (c : Thread nD τ) arg15 fullShare (out0_14 x0 x1 x2 x3 x4)) -∗ K ⟨⟩))
      ⊢ wp frame (wpE (defs₀ (F := F)) Variants.none c none) E (cc0_gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_gru_kernel_eq_skeleton]; unfold cc0_gru_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  isplitl [H12]
  · iexists _; isplitr
    swap; · iexact H12
    ipureintro
    try dsimp only
    exact View.read_writes_eq_canon _ _ _ (cover0_12 _)
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

/-! ## The body obligation -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the two concatenations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.Tail.lean ====
/-
  The two results of the kernel's program after the run.  After the region the program concatenates, along the
  columns, the output layer, the mixture weights, the two coordinate slices and the two predicted coordinates into
  the first result [4096, 1086], and the new state with the two predicted coordinates into the second [4096, 1026].
  The region leaves each of its seven output arrays at what its grid points wrote back; everything else is as the
  region found it.  So each result is the concatenation of those final arrays.
-/
import proofs.«139136_j86492051407610_1_alg».proof.Proof.RegionKI
import Idealize.ShloMosaic.Lib.StableHlo.Run
import Idealize.ShloMosaic.PureOps.Ideal

set_option maxRecDepth 16384

noncomputable section

namespace Cert.KernelIdeal.Tail

open Cert.KernelIdeal Cert.KernelIdeal.Gen Cert.KernelIdeal.Fr
open Idealize.ShloMosaic Idealize.ShloMosaic.TcCoe Idealize.ShloMosaic.StableHlo
open Idealize.SL Idealize.SL.Sem
open Idealize.ShloMosaic.Pipeline (Dat Cfg)

variable (m : (ℓ : Loc nD τ sig) → Buf (Elt Ideal) ℓ) (c : Dev nD)

/-- Core `c`'s buffers as the region leaves them: its arrays at their final contents, the rest as found. -/
abbrev left : Valuation τ sig (Elt Ideal) :=
  Pipeline.withArrays (cfgs 0).spec c (V0 m c) fun w => (Fr.dats m 0 c).arrAt w (cfgs 0).N

/-- An array of the pipeline is left at its final contents. -/
theorem left_arr (w : Fin 15) :
    left m c (Proc.devRef .tc (Pipeline.arrRef spec0 w)) = (Fr.dats m 0 c).arrAt w cfg0.N :=
  Pipeline.withArrays_arr spec0 launch0.win.arr_inj c _ _ w

set_option maxHeartbeats 2000000 in
/-- The first result: the six final arrays side by side. -/
theorem result0 :
    Pipeline.afterTail₀ cfgs (Fr.dats m) 0 (V0 m) [hostOps1] c main_v23
      = concatenate S4096x1086 1 [⟨S4096x1024, (Fr.dats m 0 c).arrAt 8 cfg0.N⟩, ⟨S4096x20, (Fr.dats m 0 c).arrAt 9 cfg0.N⟩, ⟨S4096x20, (Fr.dats m 0 c).arrAt 10 cfg0.N⟩, ⟨S4096x20, (Fr.dats m 0 c).arrAt 11 cfg0.N⟩, ⟨S4096x1, (Fr.dats m 0 c).arrAt 12 cfg0.N⟩, ⟨S4096x1, (Fr.dats m 0 c).arrAt 13 cfg0.N⟩] concatenates_S4096x1024_S4096x20_S4096x20_S4096x20_S4096x1_S4096x1_S4096x1086_d1 := by
  unfold Pipeline.afterTail₀
  show StableHlo.after hostOps1 (left m c) (Proc.devRef .tc main_v23) = _
  after_results
  simp only [Matrix.cons_val]
  repeat (rw [nary_result_ne]; rotate_left; decide)
  rw [show left m c (Proc.devRef .tc main_v22_0) = (Fr.dats m 0 c).arrAt 8 cfg0.N from left_arr m c 8,
    show left m c (Proc.devRef .tc main_v22_1) = (Fr.dats m 0 c).arrAt 9 cfg0.N from left_arr m c 9,
    show left m c (Proc.devRef .tc main_v22_2) = (Fr.dats m 0 c).arrAt 10 cfg0.N from left_arr m c 10,
    show left m c (Proc.devRef .tc main_v22_3) = (Fr.dats m 0 c).arrAt 11 cfg0.N from left_arr m c 11,
    show left m c (Proc.devRef .tc main_v22_4) = (Fr.dats m 0 c).arrAt 12 cfg0.N from left_arr m c 12,
    show left m c (Proc.devRef .tc main_v22_5) = (Fr.dats m 0 c).arrAt 13 cfg0.N from left_arr m c 13]

set_option maxHeartbeats 2000000 in
/-- The second result: the new state and the two predicted coordinates side by side. -/
theorem result1 :
    Pipeline.afterTail₀ cfgs (Fr.dats m) 0 (V0 m) [hostOps1] c main_v24
      = concatenate S4096x1026 1 [⟨S4096x1024, (Fr.dats m 0 c).arrAt 14 cfg0.N⟩, ⟨S4096x1, (Fr.dats m 0 c).arrAt 12 cfg0.N⟩, ⟨S4096x1, (Fr.dats m 0 c).arrAt 13 cfg0.N⟩] concatenates_S4096x1024_S4096x1_S4096x1_S4096x1026_d1 := by
  unfold Pipeline.afterTail₀
  show StableHlo.after hostOps1 (left m c) (Proc.devRef .tc main_v24) = _
  after_results
  simp only [Matrix.cons_val]
  repeat (rw [nary_result_ne]; rotate_left; decide)
  rw [show left m c (Proc.devRef .tc main_v22_6) = (Fr.dats m 0 c).arrAt 14 cfg0.N from left_arr m c 14,
    show left m c (Proc.devRef .tc main_v22_4) = (Fr.dats m 0 c).arrAt 12 cfg0.N from left_arr m c 12,
    show left m c (Proc.devRef .tc main_v22_5) = (Fr.dats m 0 c).arrAt 13 cfg0.N from left_arr m c 13]

end Cert.KernelIdeal.Tail

end
-- ==== Proof.RowSpec.lean ====
/-
  The cell, one batch row at a time.  Every output of the recurrent cell at batch row `i` depends on row `i` of the
  previous state `h` (1024 entries) and row `i` of the input projection `pre` (4096 entries) only, through the
  weights: the recurrent matrix `rk` (1024 × 4096, its column blocks [0,2048) the two gates, [2048,3072) the
  candidate, [3072,4096) the output layer), the gate bias `bzr` (2048), the candidate bias `bh`, the output bias
  `bo`, and the mixture layer `wg` (1024 × 60), `bg` (60).  On the extended reals:

    zr j   = Σ_k h k · rk k j + pre j + bzr j                        (j < 2048)
    z j    = σ (zr j),   r j = σ (zr (1024 + j))                     (j < 1024)
    hh j   = tanh (Σ_k (r k · h k) · rk k (2048 + j) + pre (2048 + j) + bh j)
    hnew j = z j · h j + (1 − z j) · hh j
    o j    = tanh (Σ_k hnew k · rk k (3072 + j) + pre (3072 + j) + bo j)
    gmm j  = Σ_k o k · wg k j + bg j                                 (j < 60)
    e j    = min hi (max lo (exp (gmm j)))                           (j < 20)
    pi j   = e j / Σ_j e j,   mux j = gmm (20 + j),   muy j = gmm (40 + j)
    xp     = Σ_j pi j · mux j,   yp = Σ_j pi j · muy j

  The three float literals (1, the clamp's lower and upper bound) are kept as the values of their bit patterns.
-/
import Idealize.ShloMosaic.PureOps.Ideal

noncomputable section

namespace Cert.Row

open Idealize.ShloMosaic

/-- The weights the cell reads, as plain functions of literal index types. -/
structure W where
  rk : Fin 1024 → Fin 4096 → EReal
  bzr : Fin 2048 → EReal
  bh : Fin 1024 → EReal
  bo : Fin 1024 → EReal
  wg : Fin 1024 → Fin 60 → EReal
  bg : Fin 60 → EReal

/-- The literal `1.0`. -/
def one : EReal := Ideal.ofBits .f32 0x3F800000#32
/-- The clamp's lower bound, the f32 nearest `1e-10`. -/
def lo : EReal := Ideal.ofBits .f32 0x2EDBE6FF#32
/-- The clamp's upper bound, the f32 nearest `1e10`. -/
def hi : EReal := Ideal.ofBits .f32 0x501502F9#32

variable (w : W) (h : Fin 1024 → EReal) (pre : Fin 4096 → EReal)

/-- Both gates' pre-activations. -/
def zr (j : Fin 2048) : EReal :=
  (∑ k : Fin 1024, h k * w.rk k ⟨j.val, by omega⟩) + pre ⟨j.val, by omega⟩ + w.bzr j
/-- The update gate. -/
def z (j : Fin 1024) : EReal := Ideal.logistic (zr w h pre ⟨j.val, by omega⟩)
/-- The reset gate. -/
def r (j : Fin 1024) : EReal := Ideal.logistic (zr w h pre ⟨1024 + j.val, by omega⟩)
/-- The candidate state. -/
def hh (j : Fin 1024) : EReal :=
  Ideal.tanh ((∑ k : Fin 1024, (r w h pre k * h k) * w.rk k ⟨2048 + j.val, by omega⟩) + pre ⟨2048 + j.val, by omega⟩ + w.bh j)
/-- The new state. -/
def hnew (j : Fin 1024) : EReal := z w h pre j * h j + (one - z w h pre j) * hh w h pre j
/-- The output layer. -/
def o (j : Fin 1024) : EReal :=
  Ideal.tanh ((∑ k : Fin 1024, hnew w h pre k * w.rk k ⟨3072 + j.val, by omega⟩) + pre ⟨3072 + j.val, by omega⟩ + w.bo j)
/-- The mixture layer's 60 outputs. -/
def gmm (j : Fin 60) : EReal := (∑ k : Fin 1024, o w h pre k * w.wg k j) + w.bg j
/-- The clamped exponentials of the 20 mixture logits. -/
def e (j : Fin 20) : EReal := min hi (max lo (Ideal.exp (gmm w h pre ⟨j.val, by omega⟩)))
/-- Their sum. -/
def den : EReal := ∑ j : Fin 20, e w h pre j
/-- The mixture weights. -/
def pi (j : Fin 20) : EReal := Ideal.div (e w h pre j) (den w h pre)
/-- The components' first coordinates. -/
def mux (j : Fin 20) : EReal := gmm w h pre ⟨20 + j.val, by omega⟩
/-- The components' second coordinates. -/
def muy (j : Fin 20) : EReal := gmm w h pre ⟨40 + j.val, by omega⟩
/-- The predicted first coordinate. -/
def xp : EReal := ∑ j : Fin 20, pi w h pre j * mux w h pre j
/-- The predicted second coordinate. -/
def yp : EReal := ∑ j : Fin 20, pi w h pre j * muy w h pre j

end Cert.Row

end
-- ==== Proof.ArgSpec.lean ====
/-
  The cell's row inputs and weights as functions of the nine argument arrays: `inputs` (a0, the class of each batch
  row), `states` (a1: 1024 columns of previous state, then 2 extra columns), `bias_z` (a2), the recurrent matrix
  (a3), the class embedding table (a4), `bias` (a5: three biases of 1024), the 2 × 4096 matrix of the extra columns
  (a6), the mixture layer (a7, a8).

  * the previous state's row `i` is columns [0, 1024) of row `i` of a1;
  * the input projection `pre` = (row of a4 chosen by a0) + (the two extra columns of a1) · a6, taken here as the
    host's own term for it — both programs compute it by the same operations, so it is never opened;
  * the gate bias is a2 followed by a5[0, 1024) (the host's concatenation, again its own term), the candidate bias
    a5[1024, 2048), the output bias a5[2048, 3072).
-/
import proofs.«139136_j86492051407610_1_alg».proof.Proof.ReadP
import proofs.«139136_j86492051407610_1_alg».proof.Proof.RowSpec
import Idealize.ShloMosaic.Lib.ValueIdx

noncomputable section

namespace Cert.Args

open Cert.ReferenceIdeal Idealize.ShloMosaic Idealize.ShloMosaic.ValueIdx

variable (a0 : (⟨S4096x1, .i32⟩ : BufTy).Contents (Elt Ideal)) (a1 : (⟨S4096x1026, .f32⟩ : BufTy).Contents (Elt Ideal))
  (a2 : (⟨S1024, .f32⟩ : BufTy).Contents (Elt Ideal)) (a3 : (⟨S1024x4096, .f32⟩ : BufTy).Contents (Elt Ideal))
  (a4 : (⟨S5000x4096, .f32⟩ : BufTy).Contents (Elt Ideal)) (a5 : (⟨S3072, .f32⟩ : BufTy).Contents (Elt Ideal))
  (a6 : (⟨S2x4096, .f32⟩ : BufTy).Contents (Elt Ideal)) (a7 : (⟨S1024x60, .f32⟩ : BufTy).Contents (Elt Ideal))
  (a8 : (⟨S60, .f32⟩ : BufTy).Contents (Elt Ideal))

/-- The input projection, [4096, 4096]: the host's term for (embedding row) + (extra columns) · a6. -/
def pre : S4096x4096.Idx → EReal := Read.val_main_v11 (F := Ideal) a0 a1 a4 a6

/-- The gate bias, [2048]: a2 followed by the first third of a5 (the host's concatenation). -/
def bzr : S2048.Idx → EReal := Read.val_main_v17 (F := Ideal) a2 a5

/-- The weights the cell reads. -/
def wts : Cert.Row.W where
  rk k j := a3 (ix2 k j)
  bzr j := bzr a2 a5 (ix1 j)
  bh j := a5 (ix1 (⟨1024 + j.val, by omega⟩ : Fin 3072))
  bo j := a5 (ix1 (⟨2048 + j.val, by omega⟩ : Fin 3072))
  wg k j := a7 (ix2 k j)
  bg j := a8 (ix1 j)

/-- Row `i` of the previous state. -/
def hrow (i : Fin 4096) : Fin 1024 → EReal := fun k => a1 (ix2 i (⟨k.val, by omega⟩ : Fin 1026))

/-- Row `i` of the input projection. -/
def prow (i : Fin 4096) : Fin 4096 → EReal := fun k => pre a0 a1 a4 a6 (ix2 i k)

end Cert.Args

end
-- ==== Proof.KPay.lean ====
/-
  The kernel's stored values, read at an index, are the row function of the point's loaded blocks.

  The kernel body loads a state block x0 [512,1024], an input-projection block x1 [512,4096], the recurrent matrix
  x2 [1024,4096], the gate bias x3 [1,2048], the candidate bias x4 [1,1024], the output bias x5 [1,1024], the mixture
  matrix x6 [1024,60] and the mixture bias x7 [1,60], and stores seven arrays computed from them.  On the extended
  reals every float operation is the exact one and a format change is the identity, so each stored array at row p
  depends only on row p of x0 and of x1:

    a matrix product into the zero accumulator at (p, j) is Σ_k lhs (p, k) · rhs (k, j)        (mm2048, mm1024, mm60);
    a column slice at (p, j) is the array at (p, o + j); a row vector broadcast down the rows reads its column; a
    column vector broadcast along the columns reads its row; a lane sum viewed as a column is Σ_k v (p, k)
                                                                            (slice2, bcastRow, bcastCol, castCol, laneSum).

  With these, stage by stage in the order the body computes them: both gates' pre-activations (pay7_apply), the update
  gate (pay8_apply), the reset gate (reset_apply), z · h (pay9_apply), (1 − z) · candidate (pay10_apply), the new state
  (pay_hnew), the output layer (pay_o), the mixture layer (pay13_apply), its two coordinate slices (pay_mux, pay_muy),
  the clamped exponentials and their normalisation (eVec_apply, pay_pi), and the two predicted coordinates
  (pay_xp, pay_yp).
-/
import proofs.«139136_j86492051407610_1_alg».proof.Proof.Gen.KernelIdeal.Skeleton
import proofs.«139136_j86492051407610_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay
open Cert.KernelIdeal Cert.KernelIdeal.Gen Idealize.ShloMosaic Idealize.ShloMosaic.ValueIdx

theorem mm2048_l0 (i : S512x2048.Idx) (q : dot_S512x1024_S1024x2048_S512x2048_1_0_0_1_n_n.contr.Idx) : (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem mm2048_r1 (i : S512x2048.Idx) (q : dot_S512x1024_S1024x2048_S512x2048_1_0_0_1_n_n.contr.Idx) : (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl
/-- A [512,1024] × [1024,2048] product into the zero accumulator, at row p and column j: the sum over the contraction coordinate. -/
theorem mm2048 (lhs : FVec Ideal S512x1024 .bf16) (rhs : FVec Ideal S1024x2048 .bf16) (p : Fin 512) (j : Fin 2048) :
    matmul dot_S512x1024_S1024x2048_S512x2048_1_0_0_1_n_n none lhs rhs (constant (F := Ideal) S512x2048 .f32 0x00000000#32) (ix2 p j)
      = ∑ k : Fin 1024, lhs (ix2 p k) * rhs (ix2 k j) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p j) ((contrEquiv1 dot_S512x1024_S1024x2048_S512x2048_1_0_0_1_n_n 1024 rfl rfl).symm k) = ix2 p k := funext fun a => Fin.ext (by
    match a with
    | ⟨0, _⟩ => exact mm2048_l0 _ _
    | ⟨1, _⟩ => exact (dot_S512x1024_S1024x2048_S512x2048_1_0_0_1_n_n.lhsIdx_val_of_single rfl _ _).trans hk)
  have er : dot_S512x1024_S1024x2048_S512x2048_1_0_0_1_n_n.rhsIdx (ix2 p j) ((contrEquiv1 dot_S512x1024_S1024x2048_S512x2048_1_0_0_1_n_n 1024 rfl rfl).symm k) = ix2 k j := funext fun a => Fin.ext (by
    match a with
    | ⟨0, _⟩ => exact (dot_S512x1024_S1024x2048_S512x2048_1_0_0_1_n_n.rhsIdx_val_of_single rfl _ _).trans hk
    | ⟨1, _⟩ => exact mm2048_r1 _ _)
  rw [el, er]

theorem mm1024_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm1024_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The same for a [512,1024] × [1024,1024] product. -/
theorem mm1024 (lhs : FVec Ideal S512x1024 .bf16) (rhs : FVec Ideal S1024x1024 .bf16) (p : Fin 512) (j : Fin 1024) :
    matmul dot_S512x1024_S1024x1024_S512x1024_1_0_0_1_n_n none lhs rhs (constant (F := Ideal) S512x1024 .f32 0x00000000#32) (ix2 p j)
      = ∑ k : Fin 1024, lhs (ix2 p k) * rhs (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p j) ((contrEquiv1 dot_S512x1024_S1024x1024_S512x1024_1_0_0_1_n_n 1024 rfl rfl).symm k) = ix2 p k := funext fun a => Fin.ext (by
    match a with
    | ⟨0, _⟩ => exact mm1024_l0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p j) ((contrEquiv1 dot_S512x1024_S1024x1024_S512x1024_1_0_0_1_n_n 1024 rfl rfl).symm k) = ix2 k j := funext fun a => Fin.ext (by
    match a with
    | ⟨0, _⟩ => exact (dot_S512x1024_S1024x1024_S512x1024_1_0_0_1_n_n.rhsIdx_val_of_single rfl _ _).trans hk
    | ⟨1, _⟩ => exact mm1024_r1 _ _)
  rw [el, er]

theorem mm60_l0 (i : S512x60.Idx) (q : dot_S512x1024_S1024x60_S512x60_1_0_0_1_n_n.contr.Idx) : (dot_S512x1024_S1024x60_S512x60_1_0_0_1_n_n.lhsIdx i q 0).val = (i 0).val := by
  unfold DotDims.lhsIdx
  rw [dif_neg (show ¬(0 : Fin S512x1024.rank) ∈ dot_S512x1024_S1024x60_S512x60_1_0_0_1_n_n.lhsBatch by decide), dif_pos (show (0 : Fin S512x1024.rank) ∈ dot_S512x1024_S1024x60_S512x60_1_0_0_1_n_n.lhsNonContracting by decide)]
  rfl
theorem mm60_r1 (i : S512x60.Idx) (q : dot_S512x1024_S1024x60_S512x60_1_0_0_1_n_n.contr.Idx) : (dot_S512x1024_S1024x60_S512x60_1_0_0_1_n_n.rhsIdx i q 1).val = (i 1).val := by
  unfold DotDims.rhsIdx
  rw [dif_neg (show ¬(1 : Fin S1024x60.rank) ∈ dot_S512x1024_S1024x60_S512x60_1_0_0_1_n_n.rhsBatch by decide), dif_pos (show (1 : Fin S1024x60.rank) ∈ dot_S512x1024_S1024x60_S512x60_1_0_0_1_n_n.rhsNonContracting by decide)]
  rfl
/-- The same for a [512,1024] × [1024,60] product. -/
theorem mm60 (lhs : FVec Ideal S512x1024 .bf16) (rhs : FVec Ideal S1024x60 .bf16) (p : Fin 512) (j : Fin 60) :
    matmul dot_S512x1024_S1024x60_S512x60_1_0_0_1_n_n none lhs rhs (constant (F := Ideal) S512x60 .f32 0x00000000#32) (ix2 p j)
      = ∑ k : Fin 1024, lhs (ix2 p k) * rhs (ix2 k j) := by
  simp only [matmul]
  rw [Ideal.matmul_constant_zero_apply, ← Equiv.sum_comp (contrEquiv1 dot_S512x1024_S1024x60_S512x60_1_0_0_1_n_n 1024 rfl rfl).symm]
  refine Finset.sum_congr rfl fun k _ => ?_
  have hk := contrEquiv1_symm_val dot_S512x1024_S1024x60_S512x60_1_0_0_1_n_n 1024 rfl rfl k
  have el : dot_S512x1024_S1024x60_S512x60_1_0_0_1_n_n.lhsIdx (ix2 p j) ((contrEquiv1 dot_S512x1024_S1024x60_S512x60_1_0_0_1_n_n 1024 rfl rfl).symm k) = ix2 p k := funext fun a => Fin.ext (by
    match a with
    | ⟨0, _⟩ => exact mm60_l0 _ _
    | ⟨1, _⟩ => exact (dot_S512x1024_S1024x60_S512x60_1_0_0_1_n_n.lhsIdx_val_of_single rfl _ _).trans hk)
  have er : dot_S512x1024_S1024x60_S512x60_1_0_0_1_n_n.rhsIdx (ix2 p j) ((contrEquiv1 dot_S512x1024_S1024x60_S512x60_1_0_0_1_n_n 1024 rfl rfl).symm k) = ix2 k j := funext fun a => Fin.ext (by
    match a with
    | ⟨0, _⟩ => exact (dot_S512x1024_S1024x60_S512x60_1_0_0_1_n_n.rhsIdx_val_of_single rfl _ _).trans hk
    | ⟨1, _⟩ => exact mm60_r1 _ _)
  rw [el, er]

/-! ## Layout operations at an index of a rank-two shape -/

/-- A column slice of a rank-two array (all rows, columns from `o`) read at (p, j) is the array at (p, o + j). -/
theorem slice2 {α : Type} {m n n' : Nat} (o : Nat) (x : (⟨2, ![m, n]⟩ : Shape).Idx → α)
    (h : (⟨2, ![m, n]⟩ : Shape).Slices ![0, o] ⟨2, ![m, n']⟩) (p : Fin m) (j : Fin n') (k : Fin n) (hk : k.val = o + j.val) :
    extractStridedSlice ⟨2, ![m, n']⟩ ![0, o] x h (ix2 p j) = x (ix2 p k) :=
  extractStridedSlice_apply ![0, o] x h (ix2 p j) (ix2 p k) (fun a => match a with
    | ⟨0, _⟩ => by show p.val = 0 + p.val; omega
    | ⟨1, _⟩ => hk)

/-- A row vector broadcast down the rows reads its column. -/
theorem bcastRow {α : Type} {m n : Nat} (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 0 j) :=
  broadcastTo_apply x h (ix2 p j) (ix2 0 j) (fun a => match a with
    | ⟨0, _⟩ => by show (0 : Nat) = if (1 : Nat) = 1 then 0 else _; rw [if_pos rfl]
    | ⟨1, _⟩ => by
      show j.val = if n = 1 then 0 else j.val
      have := j.isLt
      split <;> omega)

/-- A column vector broadcast along the columns reads its row. -/
theorem bcastCol {α : Type} {m n : Nat} (x : (⟨2, ![m, 1]⟩ : Shape).Idx → α)
    (h : (⟨2, ![m, 1]⟩ : Shape).Broadcasts ⟨2, ![m, n]⟩) (p : Fin m) (j : Fin n) :
    broadcastTo ⟨2, ![m, n]⟩ x h (ix2 p j) = x (ix2 p 0) :=
  broadcastTo_apply x h (ix2 p j) (ix2 p 0) (fun a => match a with
    | ⟨0, _⟩ => by
      show p.val = if m = 1 then 0 else p.val
      have := p.isLt
      split <;> omega
    | ⟨1, _⟩ => by show (0 : Nat) = if (1 : Nat) = 1 then 0 else _; rw [if_pos rfl])

/-- A vector viewed as one column reads its entry. -/
theorem castCol {α : Type} {m : Nat} (x : (⟨1, ![m]⟩ : Shape).Idx → α)
    (h : (⟨1, ![m]⟩ : Shape).ShapeCasts ⟨2, ![m, 1]⟩) (p : Fin m) :
    shapeCast ⟨2, ![m, 1]⟩ x h (ix2 p 0) = x (ix1 p) :=
  shapeCast_apply x h (ix2 p 0) (ix1 p) (by
    rw [Shape.rowMajor_val_one, Shape.rowMajor_val_two]
    show p.val = p.val * 1 + 0
    omega)

variable (x0 : Vec Ideal S512x1024 .f32) (x1 : Vec Ideal S512x4096 .f32) (x2 : Vec Ideal S1024x4096 .bf16) (x3 : Vec Ideal S1x2048 .f32) (x4 x5 : Vec Ideal S1x1024 .f32) (x6 : Vec Ideal S1024x60 .bf16) (x7 : Vec Ideal S1x60 .f32)

/-- The weights, as the loaded blocks give them. -/
def wOf : Cert.Row.W where
  rk k j := x2 (ix2 k j)
  bzr j := x3 (ix2 0 j)
  bh j := x4 (ix2 0 j)
  bo j := x5 (ix2 0 j)
  wg k j := x6 (ix2 k j)
  bg j := x7 (ix2 0 j)
/-- Row p of the state block and of the input-projection block. -/
def hOf (p : Fin 512) : Fin 1024 → EReal := fun k => x0 (ix2 p k)
def pOf (p : Fin 512) : Fin 4096 → EReal := fun k => x1 (ix2 p k)

/-! ## The stages, each read at row p -/

/-- Both gates' pre-activations. -/
theorem pay7_apply (p : Fin 512) (j : Fin 2048) :
    k0_pay7 (F := Ideal) x0 x1 x2 x3 (ix2 p j) = Cert.Row.zr (wOf x2 x3 x4 x5 x6 x7) (hOf x0 p) (pOf x1 p) j := by
  unfold k0_pay7 k0_pay1 k0_pay2 k0_pay3
  simp only [shapeCast_self]
  show matmul dot_S512x1024_S1024x2048_S512x2048_1_0_0_1_n_n none _ _ (constant (F := Ideal) S512x2048 .f32 0x00000000#32) (ix2 p j)
      + extractStridedSlice S512x2048 ![0, 0] x1 slices_S512x4096_o0_0_S512x2048 (ix2 p j)
      + broadcastTo S512x2048 x3 broadcasts_S1x2048_S512x2048 (ix2 p j) = _
  rw [mm2048, slice2 0 x1 _ p j ⟨j.val, by omega⟩ (Nat.zero_add _).symm, bcastRow x3 _ p j]
  refine congrArg₂ (· + ·) (congrArg₂ (· + ·) (Finset.sum_congr rfl fun k _ => ?_) rfl) rfl
  exact congrArg (x0 (ix2 p k) * ·) (slice2 0 x2 _ k j ⟨j.val, by omega⟩ (Nat.zero_add _).symm)

/-- The update gate. -/
theorem pay8_apply (p : Fin 512) (j : Fin 1024) :
    k0_pay8 (F := Ideal) x0 x1 x2 x3 (ix2 p j) = Cert.Row.z (wOf x2 x3 x4 x5 x6 x7) (hOf x0 p) (pOf x1 p) j := by
  unfold k0_pay8
  show Ideal.logistic (extractStridedSlice S512x1024 ![0, 0] (k0_pay7 (F := Ideal) x0 x1 x2 x3) slices_S512x2048_o0_0_S512x1024 (ix2 p j)) = _
  rw [slice2 0 (k0_pay7 (F := Ideal) x0 x1 x2 x3) _ p j ⟨j.val, by omega⟩ (Nat.zero_add _).symm, pay7_apply x0 x1 x2 x3 x4 x5 x6 x7]
  rfl

/-- The reset gate. -/
theorem reset_apply (p : Fin 512) (k : Fin 1024) :
    logistic (extractStridedSlice S512x1024 ![0, 1024] (k0_pay7 (F := Ideal) x0 x1 x2 x3) slices_S512x2048_o0_1024_S512x1024) (ix2 p k)
      = Cert.Row.r (wOf x2 x3 x4 x5 x6 x7) (hOf x0 p) (pOf x1 p) k := by
  show Ideal.logistic (extractStridedSlice S512x1024 ![0, 1024] (k0_pay7 (F := Ideal) x0 x1 x2 x3) slices_S512x2048_o0_1024_S512x1024 (ix2 p k)) = _
  rw [slice2 1024 (k0_pay7 (F := Ideal) x0 x1 x2 x3) _ p k ⟨1024 + k.val, by omega⟩ rfl, pay7_apply x0 x1 x2 x3 x4 x5 x6 x7]
  rfl

/-- The kept part of the state: update gate times previous state. -/
theorem pay9_apply (p : Fin 512) (j : Fin 1024) :
    k0_pay9 (F := Ideal) x0 x1 x2 x3 (ix2 p j) = Cert.Row.z (wOf x2 x3 x4 x5 x6 x7) (hOf x0 p) (pOf x1 p) j * hOf x0 p j := by
  unfold k0_pay9 k0_pay1
  simp only [shapeCast_self]
  show k0_pay8 (F := Ideal) x0 x1 x2 x3 (ix2 p j) * x0 (ix2 p j) = _
  rw [pay8_apply x0 x1 x2 x3 x4 x5 x6 x7]
  rfl

/-- The new part of the state: (1 − update gate) times the candidate. -/
theorem pay10_apply (p : Fin 512) (j : Fin 1024) :
    k0_pay10 (F := Ideal) x0 x1 x2 x3 x4 (ix2 p j)
      = (Cert.Row.one - Cert.Row.z (wOf x2 x3 x4 x5 x6 x7) (hOf x0 p) (pOf x1 p) j) * Cert.Row.hh (wOf x2 x3 x4 x5 x6 x7) (hOf x0 p) (pOf x1 p) j := by
  unfold k0_pay10 k0_pay1 k0_pay2 k0_pay3
  simp only [shapeCast_self]
  show (Ideal.ofBits .f32 0x3F800000#32 - k0_pay8 (F := Ideal) x0 x1 x2 x3 (ix2 p j))
      * Ideal.tanh (matmul dot_S512x1024_S1024x1024_S512x1024_1_0_0_1_n_n none _ _ (constant (F := Ideal) S512x1024 .f32 0x00000000#32) (ix2 p j)
          + extractStridedSlice S512x1024 ![0, 2048] x1 slices_S512x4096_o0_2048_S512x1024 (ix2 p j)
          + broadcastTo S512x1024 x4 broadcasts_S1x1024_S512x1024 (ix2 p j)) = _
  rw [pay8_apply x0 x1 x2 x3 x4 x5 x6 x7, mm1024, slice2 2048 x1 _ p j ⟨2048 + j.val, by omega⟩ rfl, bcastRow x4 _ p j]
  refine congrArg (_ * ·) (congrArg Ideal.tanh (congrArg₂ (· + ·) (congrArg₂ (· + ·) (Finset.sum_congr rfl fun k _ => ?_) rfl) rfl))
  refine congrArg₂ (· * ·) ?_ (slice2 2048 x2 _ k j ⟨2048 + j.val, by omega⟩ rfl)
  exact congrArg (· * x0 (ix2 p k)) (reset_apply x0 x1 x2 x3 x4 x5 x6 x7 p k)

/-- The new state. -/
theorem pay_hnew (p : Fin 512) (j : Fin 1024) :
    k0_pay11 (F := Ideal) (k0_pay9 (F := Ideal) x0 x1 x2 x3) (k0_pay10 (F := Ideal) x0 x1 x2 x3 x4) (ix2 p j) = Cert.Row.hnew (wOf x2 x3 x4 x5 x6 x7) (hOf x0 p) (pOf x1 p) j := by
  unfold k0_pay11
  show k0_pay9 (F := Ideal) x0 x1 x2 x3 (ix2 p j) + k0_pay10 (F := Ideal) x0 x1 x2 x3 x4 (ix2 p j) = _
  rw [pay9_apply x0 x1 x2 x3 x4 x5 x6 x7, pay10_apply x0 x1 x2 x3 x4 x5 x6 x7]
  rfl

/-- The output layer. -/
theorem pay_o (p : Fin 512) (j : Fin 1024) :
    k0_pay12 (F := Ideal) (k0_pay2 (F := Ideal) x1) (k0_pay3 (F := Ideal) x2) (k0_pay4 (F := Ideal) x5) (k0_pay9 (F := Ideal) x0 x1 x2 x3) (k0_pay10 (F := Ideal) x0 x1 x2 x3 x4) (ix2 p j) = Cert.Row.o (wOf x2 x3 x4 x5 x6 x7) (hOf x0 p) (pOf x1 p) j := by
  unfold k0_pay12 k0_pay2 k0_pay3 k0_pay4
  simp only [shapeCast_self]
  show Ideal.tanh (matmul dot_S512x1024_S1024x1024_S512x1024_1_0_0_1_n_n none _ _ (constant (F := Ideal) S512x1024 .f32 0x00000000#32) (ix2 p j)
          + extractStridedSlice S512x1024 ![0, 3072] x1 slices_S512x4096_o0_3072_S512x1024 (ix2 p j)
          + broadcastTo S512x1024 x5 broadcasts_S1x1024_S512x1024 (ix2 p j)) = _
  rw [mm1024, slice2 3072 x1 _ p j ⟨3072 + j.val, by omega⟩ rfl, bcastRow x5 _ p j]
  refine congrArg Ideal.tanh (congrArg₂ (· + ·) (congrArg₂ (· + ·) (Finset.sum_congr rfl fun k _ => ?_) rfl) rfl)
  exact congrArg₂ (· * ·) (pay_hnew x0 x1 x2 x3 x4 x5 x6 x7 p k) (slice2 3072 x2 _ k j ⟨3072 + j.val, by omega⟩ rfl)

/-- The mixture layer's 60 outputs. -/
theorem pay13_apply (p : Fin 512) (j : Fin 60) :
    k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4) (ix2 p j) = Cert.Row.gmm (wOf x2 x3 x4 x5 x6 x7) (hOf x0 p) (pOf x1 p) j := by
  unfold k0_pay13 k0_pay5 k0_pay6
  simp only [shapeCast_self]
  show matmul dot_S512x1024_S1024x60_S512x60_1_0_0_1_n_n none _ _ (constant (F := Ideal) S512x60 .f32 0x00000000#32) (ix2 p j)
      + broadcastTo S512x60 x7 broadcasts_S1x60_S512x60 (ix2 p j) = _
  rw [mm60, bcastRow x7 _ p j]
  refine congrArg₂ (· + ·) (Finset.sum_congr rfl fun k _ => ?_) rfl
  exact congrArg (· * x6 (ix2 k j)) (pay_o x0 x1 x2 x3 x4 x5 x6 x7 p k)

/-- The components' first coordinates. -/
theorem pay_mux (p : Fin 512) (j : Fin 20) :
    k0_pay14 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4) (ix2 p j) = Cert.Row.mux (wOf x2 x3 x4 x5 x6 x7) (hOf x0 p) (pOf x1 p) j := by
  unfold k0_pay14
  refine (slice2 20 (k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) _ p j ⟨20 + j.val, by omega⟩ rfl).trans ?_
  exact pay13_apply x0 x1 x2 x3 x4 x5 x6 x7 p _

/-- The components' second coordinates. -/
theorem pay_muy (p : Fin 512) (j : Fin 20) :
    k0_pay15 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4) (ix2 p j) = Cert.Row.muy (wOf x2 x3 x4 x5 x6 x7) (hOf x0 p) (pOf x1 p) j := by
  unfold k0_pay15
  refine (slice2 40 (k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) _ p j ⟨40 + j.val, by omega⟩ rfl).trans ?_
  exact pay13_apply x0 x1 x2 x3 x4 x5 x6 x7 p _

/-- The clamped exponentials of the first 20 columns of a [512,60] array: min hi (max lo (exp ·)). -/
def eVec (g : FVec Ideal S512x60 .f32) : FVec Ideal S512x20 .f32 :=
  minimumf (broadcast S512x20 (Scalar.ofBits (F := Ideal) .f32 0x501502F9#32))
    (maximumf (broadcast S512x20 (Scalar.ofBits (F := Ideal) .f32 0x2EDBE6FF#32))
      (exp (extractStridedSlice S512x20 ![0, 0] g slices_S512x60_o0_0_S512x20)))

/-- Of the mixture layer's output they are the row function's. -/
theorem eVec_apply (p : Fin 512) (j : Fin 20) :
    eVec (k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) (ix2 p j) = Cert.Row.e (wOf x2 x3 x4 x5 x6 x7) (hOf x0 p) (pOf x1 p) j := by
  show min (Ideal.ofBits .f32 0x501502F9#32) (max (Ideal.ofBits .f32 0x2EDBE6FF#32)
      (Ideal.exp (extractStridedSlice S512x20 ![0, 0] (k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) slices_S512x60_o0_0_S512x20 (ix2 p j)))) = _
  rw [slice2 0 (k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) _ p j ⟨j.val, by omega⟩ (Nat.zero_add _).symm, pay13_apply x0 x1 x2 x3 x4 x5 x6 x7]
  rfl

/-- The sum along the 20 lanes of a [512,20] array, viewed as a column, at row p. -/
theorem laneSum (v : FVec Ideal S512x20 .f32) (p : Fin 512) :
    shapeCast S512x1 (multiReduction (F := Ideal) .add [1] S512 v 0x00000000#32 reduces_S512x20_S512 (.inl rfl) rfl) shapeCasts_S512_S512x1 (ix2 p 0)
      = ∑ k : Fin 20, v (ix2 p k) := by
  refine (castCol _ shapeCasts_S512_S512x1 p).trans ?_
  refine (Ideal.multiReduction_add_single v _ reduces_S512x20_S512 (.inl rfl) rfl (ix1 p)).trans ?_
  refine Finset.sum_congr rfl fun k _ => congrArg v (funext fun a => ?_)
  match a with
  | ⟨0, _⟩ => rfl
  | ⟨1, _⟩ => rfl

/-- The mixture weights. -/
theorem pay_pi (p : Fin 512) (j : Fin 20) :
    k0_pay16 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4) (ix2 p j) = Cert.Row.pi (wOf x2 x3 x4 x5 x6 x7) (hOf x0 p) (pOf x1 p) j := by
  unfold k0_pay16
  show Ideal.div (eVec (k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) (ix2 p j))
      (broadcastTo S512x20 (shapeCast S512x1 (multiReduction (F := Ideal) .add [1] S512 (eVec (k0_pay13 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4))) 0x00000000#32 reduces_S512x20_S512 (.inl rfl) rfl) shapeCasts_S512_S512x1) broadcasts_S512x1_S512x20 (ix2 p j)) = _
  rw [bcastCol _ broadcasts_S512x1_S512x20 p j, laneSum, eVec_apply x0 x1 x2 x3 x4 x5 x6 x7]
  refine congrArg (Ideal.div _) ?_
  exact Finset.sum_congr rfl fun k _ => eVec_apply x0 x1 x2 x3 x4 x5 x6 x7 p k

/-- The predicted first coordinate. -/
theorem pay_xp (p : Fin 512) :
    k0_pay17 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4) (ix2 p 0) = Cert.Row.xp (wOf x2 x3 x4 x5 x6 x7) (hOf x0 p) (pOf x1 p) := by
  unfold k0_pay17
  refine (laneSum _ p).trans ?_
  refine Finset.sum_congr rfl fun k _ => ?_
  show (k0_pay16 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) (ix2 p k) * (k0_pay14 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) (ix2 p k) = _
  rw [pay_pi x0 x1 x2 x3 x4 x5 x6 x7, pay_mux x0 x1 x2 x3 x4 x5 x6 x7]

/-- The predicted second coordinate. -/
theorem pay_yp (p : Fin 512) :
    k0_pay18 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4) (ix2 p 0) = Cert.Row.yp (wOf x2 x3 x4 x5 x6 x7) (hOf x0 p) (pOf x1 p) := by
  unfold k0_pay18
  refine (laneSum _ p).trans ?_
  refine Finset.sum_congr rfl fun k _ => ?_
  show (k0_pay16 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) (ix2 p k) * (k0_pay15 (F := Ideal) (k0_pay2 (F := Ideal) x1) (k0_pay3 (F := Ideal) x2) (k0_pay4 (F := Ideal) x5) (k0_pay5 (F := Ideal) x6) (k0_pay6 (F := Ideal) x7) (k0_pay9 (F := Ideal) x0 x1 x2 x3) (k0_pay10 (F := Ideal) x0 x1 x2 x3 x4)) (ix2 p k) = _
  rw [pay_pi x0 x1 x2 x3 x4 x5 x6 x7, pay_muy x0 x1 x2 x3 x4 x5 x6 x7]

end Cert.KernelIdeal.Pay

end
-- ==== Proof.Entry.lean ====
/-
  What the region finds in its input windows, as functions of the nine argument arrays, over the extended reals.

  Before the region the host cuts the previous state (columns [0, 1024) of the second argument) and builds the input
  projection (an embedding row chosen by the class, plus the two extra state columns times a 2 × 4096 matrix); it joins
  the gate bias from the third argument and the first third of the bias vector, and lays the other two thirds out as
  rows; the two matrices only change float format, which is the identity here.  The region then reads the state and the
  input projection in eight blocks of 512 consecutive rows — row `p` of block `t` is row `512 t + p` of the array —
  and reads the weights and biases whole at every point.
-/
import proofs.«139136_j86492051407610_1_alg».proof.Proof.RegionKI
import proofs.«139136_j86492051407610_1_alg».proof.Proof.ArgSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Entry

open Cert.KernelIdeal Cert.KernelIdeal.Gen Cert.KernelIdeal.Fr Idealize.ShloMosaic Idealize.ShloMosaic.ValueIdx
open Idealize.ShloMosaic.TcCoe Idealize.SL Idealize.SL.Sem

variable (m : (ℓ : Loc nD τ sig) → Buf (Elt Ideal) ℓ) (c : Dev nD)

/-! ## The arrays the host leaves for the region -/

/-- The previous state: columns [0, 1024) of the state argument. -/
theorem v0_eq : (V m c main_v0 : S4096x1024.Idx → EReal)
    = extractStridedSlice S4096x1024 ![0, 0] (m ((c : Thread nD τ).loc main_arg1)) slices_S4096x1026_S4096x1024_0_0 := by
  show StableHlo.after hostOps0 (fun b => m (c, b)) (Proc.devRef .tc main_v0) = _
  after_results <;> rfl

theorem v0_at (i : Fin 4096) (k : Fin 1024) :
    V m c main_v0 (ix2 i k) = Cert.Args.hrow (m ((c : Thread nD τ).loc main_arg1)) i k := by
  rw [v0_eq]
  exact extractStridedSlice_apply (s := S4096x1026) (t := S4096x1024) ![0, 0] (m ((c : Thread nD τ).loc main_arg1)) slices_S4096x1026_S4096x1024_0_0 (ix2 i k) (ix2 i (⟨k.val, by omega⟩ : Fin 1026)) (fun a => match a with
    | ⟨0, _⟩ => by show i.val = 0 + i.val; omega
    | ⟨1, _⟩ => by show k.val = 0 + k.val; omega)

/-- The input projection is the host's own term for it: the same operations on the same arguments. -/
theorem v11_eq : (V m c main_v11 : S4096x4096.Idx → EReal)
    = Cert.ReferenceIdeal.Read.val_main_v11 (F := Ideal) (m ((c : Thread nD τ).loc main_arg0)) (m ((c : Thread nD τ).loc main_arg1)) (m ((c : Thread nD τ).loc main_arg4)) (m ((c : Thread nD τ).loc main_arg6)) := by
  show StableHlo.after hostOps0 (fun b => m (c, b)) (Proc.devRef .tc main_v11) = _
  after_results_simp <;> rfl

theorem v11_at (i : Fin 4096) (k : Fin 4096) :
    V m c main_v11 (ix2 i k) = Cert.Args.prow (m ((c : Thread nD τ).loc main_arg0)) (m ((c : Thread nD τ).loc main_arg1)) (m ((c : Thread nD τ).loc main_arg4)) (m ((c : Thread nD τ).loc main_arg6)) i k := by
  rw [v11_eq]; rfl

/-- The recurrent matrix: a change of float format only. -/
theorem v20_at (k : Fin 1024) (j : Fin 4096) :
    V m c main_v20 (ix2 k j) = (m ((c : Thread nD τ).loc main_arg3)) (ix2 k j) := by
  have e : (V m c main_v20 : S1024x4096.Idx → EReal) = truncf (F := Ideal) .bf16 (m ((c : Thread nD τ).loc main_arg3)) bitsLt_bf16_f32 := by
    show StableHlo.after hostOps0 (fun b => m (c, b)) (Proc.devRef .tc main_v20) = _
    after_results <;> rfl
  rw [e]; rfl

/-- The gate bias as a row: the host's concatenation of the third argument and the first third of the bias vector. -/
theorem v14_eq : (V m c main_v14 : S1x2048.Idx → EReal)
    = shapeCast S1x2048 (concatenate S2048 0 [⟨S1024, (m ((c : Thread nD τ).loc main_arg2))⟩, ⟨S1024, extractStridedSlice S1024 ![0] (m ((c : Thread nD τ).loc main_arg5)) slices_S3072_S1024_0⟩] concatenates_S1024_S1024_S2048_d0) shapeCasts_S2048_S1x2048 := by
  show StableHlo.after hostOps0 (fun b => m (c, b)) (Proc.devRef .tc main_v14) = _
  after_results <;> rfl

theorem v14_at (j : Fin 2048) :
    V m c main_v14 (ix2 (0 : Fin 1) j) = Cert.Args.bzr (m ((c : Thread nD τ).loc main_arg2)) (m ((c : Thread nD τ).loc main_arg5)) (ix1 j) := by
  rw [v14_eq]
  exact (shapeCast_a_1a_apply _ shapeCasts_S2048_S1x2048 0 j).trans rfl

/-- The candidate bias as a row: the second third of the bias vector. -/
theorem v16_at (j : Fin 1024) :
    V m c main_v16 (ix2 (0 : Fin 1) j) = (m ((c : Thread nD τ).loc main_arg5)) (ix1 (⟨1024 + j.val, by omega⟩ : Fin 3072)) := by
  have e : (V m c main_v16 : S1x1024.Idx → EReal) = shapeCast S1x1024 (extractStridedSlice S1024 ![1024] (m ((c : Thread nD τ).loc main_arg5)) slices_S3072_S1024_1024) shapeCasts_S1024_S1x1024 := by
    show StableHlo.after hostOps0 (fun b => m (c, b)) (Proc.devRef .tc main_v16) = _
    after_results <;> rfl
  rw [e]
  refine (shapeCast_a_1a_apply _ shapeCasts_S1024_S1x1024 0 j).trans ?_
  exact extractStridedSlice_apply (s := S3072) (t := S1024) ![1024] (m ((c : Thread nD τ).loc main_arg5)) slices_S3072_S1024_1024 (ix1 j) (ix1 (⟨1024 + j.val, by omega⟩ : Fin 3072)) (fun a => match a with
    | ⟨0, _⟩ => by show 1024 + j.val = 1024 + j.val; rfl)

/-- The output bias as a row: the last third of the bias vector. -/
theorem v18_at (j : Fin 1024) :
    V m c main_v18 (ix2 (0 : Fin 1) j) = (m ((c : Thread nD τ).loc main_arg5)) (ix1 (⟨2048 + j.val, by omega⟩ : Fin 3072)) := by
  have e : (V m c main_v18 : S1x1024.Idx → EReal) = shapeCast S1x1024 (extractStridedSlice S1024 ![2048] (m ((c : Thread nD τ).loc main_arg5)) slices_S3072_S1024_2048) shapeCasts_S1024_S1x1024 := by
    show StableHlo.after hostOps0 (fun b => m (c, b)) (Proc.devRef .tc main_v18) = _
    after_results <;> rfl
  rw [e]
  refine (shapeCast_a_1a_apply _ shapeCasts_S1024_S1x1024 0 j).trans ?_
  exact extractStridedSlice_apply (s := S3072) (t := S1024) ![2048] (m ((c : Thread nD τ).loc main_arg5)) slices_S3072_S1024_2048 (ix1 j) (ix1 (⟨2048 + j.val, by omega⟩ : Fin 3072)) (fun a => match a with
    | ⟨0, _⟩ => by show 2048 + j.val = 2048 + j.val; rfl)

/-- The mixture layer's matrix: a change of float format only. -/
theorem v21_at (k : Fin 1024) (j : Fin 60) :
    V m c main_v21 (ix2 k j) = (m ((c : Thread nD τ).loc main_arg7)) (ix2 k j) := by
  have e : (V m c main_v21 : S1024x60.Idx → EReal) = truncf (F := Ideal) .bf16 (m ((c : Thread nD τ).loc main_arg7)) bitsLt_bf16_f32 := by
    show StableHlo.after hostOps0 (fun b => m (c, b)) (Proc.devRef .tc main_v21) = _
    after_results <;> rfl
  rw [e]; rfl

/-- The mixture layer's bias as a row. -/
theorem v19_at (j : Fin 60) :
    V m c main_v19 (ix2 (0 : Fin 1) j) = (m ((c : Thread nD τ).loc main_arg8)) (ix1 j) := by
  have e : (V m c main_v19 : S1x60.Idx → EReal) = shapeCast S1x60 (m ((c : Thread nD τ).loc main_arg8)) shapeCasts_S60_S1x60 := by
    show StableHlo.after hostOps0 (fun b => m (c, b)) (Proc.devRef .tc main_v19) = _
    after_results <;> rfl
  rw [e]
  exact shapeCast_a_1a_apply _ shapeCasts_S60_S1x60 0 j

/-! ## The blocks: where each sits in its array -/

/-- The array row of row `p` of the block at grid point `t`: the blocks are 512 consecutive rows each. -/
def row (t : Fin cfg0.N) (p : Fin 512) : Fin 4096 :=
  ⟨t.val * 512 + p.val, by have h : t.val < 8 := Nat.lt_of_lt_of_eq t.isLt N_0; omega⟩

/-- The index maps over the grid: the state and the input projection move down one block of rows per point, on
    column block 0; the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Each block read is the array read at the block's place: the state's rows. -/
theorem blk0_V (t : Fin cfg0.N) (p : Fin 512) (k : Fin 1024) :
    (iblk m c 0 t : S512x1024.Idx → EReal) (ix2 p k) = V m c main_v0 (ix2 (row t p) k) := by
  obtain ⟨e0, e1, -⟩ := idx_facts t
  show V m c main_v0 (((cfg0.win 0).blk t).view.emb (ix2 p k)) = V m c main_v0 (ix2 (row t p) k)
  have h : ((cfg0.win 0).blk t).view.emb (ix2 p k) = ix2 (row t p) k := by
    funext a; apply Fin.ext
    match a with
    | ⟨0, _⟩ => show win0_0.index t (0 : Fin 2) * 512 + 1 * p.val = t.val * 512 + p.val; omega
    | ⟨1, _⟩ => show win0_0.index t (1 : Fin 2) * 1024 + 1 * k.val = k.val; omega
  rw [h]

/-- The input projection's rows. -/
theorem blk1_V (t : Fin cfg0.N) (p : Fin 512) (k : Fin 4096) :
    (iblk m c 1 t : S512x4096.Idx → EReal) (ix2 p k) = V m c main_v11 (ix2 (row t p) k) := by
  obtain ⟨-, -, e0, e1, -⟩ := idx_facts t
  show V m c main_v11 (((cfg0.win 1).blk t).view.emb (ix2 p k)) = V m c main_v11 (ix2 (row t p) k)
  have h : ((cfg0.win 1).blk t).view.emb (ix2 p k) = ix2 (row t p) k := by
    funext a; apply Fin.ext
    match a with
    | ⟨0, _⟩ => show win0_1.index t (0 : Fin 2) * 512 + 1 * p.val = t.val * 512 + p.val; omega
    | ⟨1, _⟩ => show win0_1.index t (1 : Fin 2) * 4096 + 1 * k.val = k.val; omega
  rw [h]

/-- The whole recurrent matrix. -/
theorem blk2_V (t : Fin cfg0.N) (k : Fin 1024) (j : Fin 4096) :
    (iblk m c 2 t : S1024x4096.Idx → EReal) (ix2 k j) = V m c main_v20 (ix2 k j) := by
  obtain ⟨-, -, -, -, e0, e1, -⟩ := idx_facts t
  show V m c main_v20 (((cfg0.win 2).blk t).view.emb (ix2 k j)) = V m c main_v20 (ix2 k j)
  have h : ((cfg0.win 2).blk t).view.emb (ix2 k j) = ix2 k j := by
    funext a; apply Fin.ext
    match a with
    | ⟨0, _⟩ => show win0_2.index t (0 : Fin 2) * 1024 + 1 * k.val = k.val; omega
    | ⟨1, _⟩ => show win0_2.index t (1 : Fin 2) * 4096 + 1 * j.val = j.val; omega
  rw [h]

/-- The whole gate-bias row. -/
theorem blk3_V (t : Fin cfg0.N) (j : Fin 2048) :
    (iblk m c 3 t : S1x2048.Idx → EReal) (ix2 (0 : Fin 1) j) = V m c main_v14 (ix2 (0 : Fin 1) j) := by
  obtain ⟨-, -, -, -, -, -, e0, e1, -⟩ := idx_facts t
  show V m c main_v14 (((cfg0.win 3).blk t).view.emb (ix2 (0 : Fin 1) j)) = V m c main_v14 (ix2 (0 : Fin 1) j)
  have h : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 2048 + 1 * j.val = j.val; omega
  rw [h]

/-- The whole candidate-bias row. -/
theorem blk4_V (t : Fin cfg0.N) (j : Fin 1024) :
    (iblk m c 4 t : S1x1024.Idx → EReal) (ix2 (0 : Fin 1) j) = V m c main_v16 (ix2 (0 : Fin 1) j) := by
  obtain ⟨-, -, -, -, -, -, -, -, e0, e1, -⟩ := idx_facts t
  show V m c main_v16 (((cfg0.win 4).blk t).view.emb (ix2 (0 : Fin 1) j)) = V m c main_v16 (ix2 (0 : Fin 1) j)
  have h : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 1024 + 1 * j.val = j.val; omega
  rw [h]

/-- The whole output-bias row. -/
theorem blk5_V (t : Fin cfg0.N) (j : Fin 1024) :
    (iblk m c 5 t : S1x1024.Idx → EReal) (ix2 (0 : Fin 1) j) = V m c main_v18 (ix2 (0 : Fin 1) j) := by
  obtain ⟨-, -, -, -, -, -, -, -, -, -, e0, e1, -⟩ := idx_facts t
  show V m c main_v18 (((cfg0.win 5).blk t).view.emb (ix2 (0 : Fin 1) j)) = V m c main_v18 (ix2 (0 : Fin 1) j)
  have h : ((cfg0.win 5).blk t).view.emb (ix2 (0 : Fin 1) j) = ix2 (0 : Fin 1) j := by
    funext a; apply Fin.ext
    match a with
    | ⟨0, _⟩ => show win0_5.index t (0 : Fin 2) * 1 + 1 * 0 = 0; omega
    | ⟨1, _⟩ => show win0_5.index t (1 : Fin 2) * 1024 + 1 * j.val = j.val; omega
  rw [h]

/-- The whole mixture matrix. -/
theorem blk6_V (t : Fin cfg0.N) (k : Fin 1024) (j : Fin 60) :
    (iblk m c 6 t : S1024x60.Idx → EReal) (ix2 k j) = V m c main_v21 (ix2 k j) := by
  obtain ⟨-, -, -, -, -, -, -, -, -, -, -, -, e0, e1, -⟩ := idx_facts t
  show V m c main_v21 (((cfg0.win 6).blk t).view.emb (ix2 k j)) = V m c main_v21 (ix2 k j)
  have h : ((cfg0.win 6).blk t).view.emb (ix2 k j) = ix2 k j := by
    funext a; apply Fin.ext
    match a with
    | ⟨0, _⟩ => show win0_6.index t (0 : Fin 2) * 1024 + 1 * k.val = k.val; omega
    | ⟨1, _⟩ => show win0_6.index t (1 : Fin 2) * 60 + 1 * j.val = j.val; omega
  rw [h]

/-- The whole mixture-bias row. -/
theorem blk7_V (t : Fin cfg0.N) (j : Fin 60) :
    (iblk m c 7 t : S1x60.Idx → EReal) (ix2 (0 : Fin 1) j) = V m c main_v19 (ix2 (0 : Fin 1) j) := by
  obtain ⟨-, -, -, -, -, -, -, -, -, -, -, -, -, -, e0, e1⟩ := idx_facts t
  show V m c main_v19 (((cfg0.win 7).blk t).view.emb (ix2 (0 : Fin 1) j)) = V m c main_v19 (ix2 (0 : Fin 1) j)
  have h : ((cfg0.win 7).blk t).view.emb (ix2 (0 : Fin 1) j) = ix2 (0 : Fin 1) j := by
    funext a; apply Fin.ext
    match a with
    | ⟨0, _⟩ => show win0_7.index t (0 : Fin 2) * 1 + 1 * 0 = 0; omega
    | ⟨1, _⟩ => show win0_7.index t (1 : Fin 2) * 60 + 1 * j.val = j.val; omega
  rw [h]

/-! ## The blocks as functions of the arguments -/

/-- Row `p` of the state block at point `t` is the previous state's row `512 t + p`. -/
theorem blk0 (t : Fin cfg0.N) (p : Fin 512) (k : Fin 1024) :
    (iblk m c 0 t : S512x1024.Idx → EReal) (ix2 p k) = Cert.Args.hrow (m ((c : Thread nD τ).loc main_arg1)) (row t p) k :=
  (blk0_V m c t p k).trans (v0_at m c (row t p) k)

/-- Row `p` of the input-projection block at point `t` is the input projection's row `512 t + p`. -/
theorem blk1 (t : Fin cfg0.N) (p : Fin 512) (k : Fin 4096) :
    (iblk m c 1 t : S512x4096.Idx → EReal) (ix2 p k) = Cert.Args.prow (m ((c : Thread nD τ).loc main_arg0)) (m ((c : Thread nD τ).loc main_arg1)) (m ((c : Thread nD τ).loc main_arg4)) (m ((c : Thread nD τ).loc main_arg6)) (row t p) k :=
  (blk1_V m c t p k).trans (v11_at m c (row t p) k)

/-- The recurrent matrix, whole at every point. -/
theorem blk2 (t : Fin cfg0.N) (k : Fin 1024) (j : Fin 4096) :
    (iblk m c 2 t : S1024x4096.Idx → EReal) (ix2 k j) = (m ((c : Thread nD τ).loc main_arg3)) (ix2 k j) :=
  (blk2_V m c t k j).trans (v20_at m c k j)

/-- The gate bias, whole at every point. -/
theorem blk3 (t : Fin cfg0.N) (j : Fin 2048) :
    (iblk m c 3 t : S1x2048.Idx → EReal) (ix2 (0 : Fin 1) j) = Cert.Args.bzr (m ((c : Thread nD τ).loc main_arg2)) (m ((c : Thread nD τ).loc main_arg5)) (ix1 j) :=
  (blk3_V m c t j).trans (v14_at m c j)

/-- The candidate bias, whole at every point. -/
theorem blk4 (t : Fin cfg0.N) (j : Fin 1024) :
    (iblk m c 4 t : S1x1024.Idx → EReal) (ix2 (0 : Fin 1) j) = (m ((c : Thread nD τ).loc main_arg5)) (ix1 (⟨1024 + j.val, by omega⟩ : Fin 3072)) :=
  (blk4_V m c t j).trans (v16_at m c j)

/-- The output bias, whole at every point. -/
theorem blk5 (t : Fin cfg0.N) (j : Fin 1024) :
    (iblk m c 5 t : S1x1024.Idx → EReal) (ix2 (0 : Fin 1) j) = (m ((c : Thread nD τ).loc main_arg5)) (ix1 (⟨2048 + j.val, by omega⟩ : Fin 3072)) :=
  (blk5_V m c t j).trans (v18_at m c j)

/-- The mixture layer's matrix, whole at every point. -/
theorem blk6 (t : Fin cfg0.N) (k : Fin 1024) (j : Fin 60) :
    (iblk m c 6 t : S1024x60.Idx → EReal) (ix2 k j) = (m ((c : Thread nD τ).loc main_arg7)) (ix2 k j) :=
  (blk6_V m c t k j).trans (v21_at m c k j)

/-- The mixture layer's bias, whole at every point. -/
theorem blk7 (t : Fin cfg0.N) (j : Fin 60) :
    (iblk m c 7 t : S1x60.Idx → EReal) (ix2 (0 : Fin 1) j) = (m ((c : Thread nD τ).loc main_arg8)) (ix1 j) :=
  (blk7_V m c t j).trans (v19_at m c j)

end Cert.KernelIdeal.Entry

end
-- ==== Proof.Arrays.lean ====
/-
  From the kernel's blocks to its whole output arrays, on the extended reals.

  The batch of 4096 rows is cut into eight blocks of 512 consecutive rows; grid point `t` reads block `t` of the
  previous state and of the input projection, reads the weights and biases whole, and writes block `t` of each of
  the seven outputs.  Row `p` of block `t` is row `512 t + p` of the array, and every output at a batch row is
  the row function (`Cert.Row`) of that row of the state and of the input projection through the weights.  So each
  output array after the region is ONE function of the argument arrays, index by index:

    * what grid point `t` writes back is block `t` of that function (`flushed_…`): element `(p, q)` of the block
      is the row function at row `512 t + p`, column `q`, and sits at `(512 t + p, q)` in the array (`emb_…`);
    * the eight blocks cover the array: row `r` is in block `r / 512` (`cover_…`);
    * hence the array is that function (`final_…_arr`), and read at `(i, j)` it is the row function of row `i` of
      the arguments at column `j` (`final_…`).

  The seven outputs — the output layer, the mixture weights, the components' two coordinate slices, the two predicted
  coordinates and the new state — differ only in the row function and in the number of columns (1024, 20 or 1).
-/
import proofs.«139136_j86492051407610_1_alg».proof.Proof.RegionKI
import proofs.«139136_j86492051407610_1_alg».proof.Proof.ArgSpec
import proofs.«139136_j86492051407610_1_alg».proof.Proof.KPay
import proofs.«139136_j86492051407610_1_alg».proof.Proof.Entry
import Idealize.ShloMosaic.Lib.Pipeline.Value
import Idealize.ShloMosaic.Lib.ValueIdx

set_option maxRecDepth 16384

noncomputable section

namespace Cert.KernelIdeal.Arr

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The cell's weights as functions of the argument arrays. -/
abbrev WT : Cert.Row.W := Cert.Args.wts (m ((c : Thread nD τ).loc main_arg2)) (m ((c : Thread nD τ).loc main_arg3)) (m ((c : Thread nD τ).loc main_arg5)) (m ((c : Thread nD τ).loc main_arg7)) (m ((c : Thread nD τ).loc main_arg8))
/-- Row `i` of the previous state. -/
abbrev HR (i : Fin 4096) : Fin 1024 → EReal := Cert.Args.hrow (m ((c : Thread nD τ).loc main_arg1)) i
/-- Row `i` of the input projection. -/
abbrev PR (i : Fin 4096) : Fin 4096 → EReal := Cert.Args.prow (m ((c : Thread nD τ).loc main_arg0)) (m ((c : Thread nD τ).loc main_arg1)) (m ((c : Thread nD τ).loc main_arg4)) (m ((c : Thread nD τ).loc main_arg6)) i

/-! ## What every block shares -/

theorem hz : (![0, 0] : Fin 2 → Nat) = fun _ => 0 := funext fun a => by fin_cases a <;> rfl

/-- Two weight records with the same six fields are the same record. -/
theorem W_ext (a b : Cert.Row.W) (h1 : a.rk = b.rk) (h2 : a.bzr = b.bzr) (h3 : a.bh = b.bh) (h4 : a.bo = b.bo)
    (h5 : a.wg = b.wg) (h6 : a.bg = b.bg) : a = b := by
  cases a; cases b; simp_all

/-- The weight blocks are whole arrays: at every grid point they are the weights of the arguments. -/
theorem wts_eq (t : Fin cfg0.N) :
    Pay.wOf (Fr.iblk m c 2 t) (Fr.iblk m c 3 t) (Fr.iblk m c 4 t) (Fr.iblk m c 5 t) (Fr.iblk m c 6 t) (Fr.iblk m c 7 t) = WT m c :=
  W_ext _ _ (funext fun k => funext fun j => Entry.blk2 m c t k j) (funext fun j => Entry.blk3 m c t j)
    (funext fun j => Entry.blk4 m c t j) (funext fun j => Entry.blk5 m c t j)
    (funext fun k => funext fun j => Entry.blk6 m c t k j) (funext fun j => Entry.blk7 m c t j)

/-- Row `p` of the state block at grid point `t` is row `512 t + p` of the previous state. -/
theorem hOf_eq (t : Fin cfg0.N) (p : Fin 512) : Pay.hOf (Fr.iblk m c 0 t) p = HR m c (Entry.row t p) :=
  funext fun k => Entry.blk0 m c t p k

/-- Row `p` of the projection block at grid point `t` is row `512 t + p` of the input projection. -/
theorem pOf_eq (t : Fin cfg0.N) (p : Fin 512) : Pay.pOf (Fr.iblk m c 1 t) p = PR m c (Entry.row t p) :=
  funext fun k => Entry.blk1 m c t p k

/-! ## The output layer (window 8) -/

/-- The output layer as one function of the arguments, index by index. -/
def G_o : S4096x1024.Idx → EReal := fun idx =>
  Cert.Row.o (WT m c) (HR m c ⟨(idx 0).val, idx2_lt0 idx⟩) (PR m c ⟨(idx 0).val, idx2_lt0 idx⟩) ⟨(idx 1).val, idx2_lt1 idx⟩

theorem G_o_apply (i : Fin 4096) (j : Fin 1024) : G_o m c (ix2 i j) = Cert.Row.o (WT m c) (HR m c i) (PR m c i) j := rfl

/-- The window's index map, decided over the grid: block `t` of the rows, block 0 of the columns. -/
theorem idx_o : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Element `(p, q)` of the block at grid point `t` sits at `(512 t + p, q)` in the array. -/
theorem emb_o (t : Fin cfg0.N) (p : Fin 512) (q : Fin 1024) :
    ((cfg0.win 8).blk t).view.emb (ix2 p q) = ix2 (Entry.row t p) q := by
  obtain ⟨e0, e1⟩ := idx_o t
  funext a; apply Fin.ext
  match a with
  | ⟨0, _⟩ => show win0_8.index t (0 : Fin 2) * 512 + 1 * p.val = t.val * 512 + p.val; rw [e0]; omega
  | ⟨1, _⟩ => show win0_8.index t (1 : Fin 2) * 1024 + 1 * q.val = q.val; rw [e1]; omega

/-- What grid point `t` writes back is block `t` of `G_o`. -/
theorem flushed_o (t : Fin cfg0.N) :
    (Fr.dats m 0 c).flushed 8 t = ((cfg0.win 8).blk t).view.read (Elt Ideal) (G_o m c) := by
  show (cfg0.win 8).cut (grid0.coords t) ((Fr.dats m 0 c).after 8 t) = _
  rw [Fr.after0_8]
  unfold Fr.out0_8
  rw [View.canon_unit_zero hz]
  simp only [View.ld_unit_zero (S := S512x1024) hz, View.ld_unit_zero (S := S512x4096) hz, View.ld_unit_zero (S := S1024x4096) hz,
    View.ld_unit_zero (S := S1x2048) hz, View.ld_unit_zero (S := S1x1024) hz]
  funext y
  obtain ⟨p, q, rfl⟩ : ∃ (p : Fin 512) (q : Fin 1024), y = ix2 p q := ⟨y 0, y 1, eq_ix2 y⟩
  refine (Pay.pay_o (Fr.iblk m c 0 t) (Fr.iblk m c 1 t) (Fr.iblk m c 2 t) (Fr.iblk m c 3 t) (Fr.iblk m c 4 t) (Fr.iblk m c 5 t)
    (Fr.iblk m c 6 t) (Fr.iblk m c 7 t) p q).trans ?_
  rw [wts_eq, hOf_eq, pOf_eq]
  exact (G_o_apply m c (Entry.row t p) q).symm.trans (congrArg (G_o m c) (emb_o t p q).symm)

/-- An index of the array is in point `t`'s block iff each coordinate is in the block's range on its axis. -/
theorem mem_blk_o (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v22_0).slice (win0_8.rect t)).set ↔ _
  rw [View.set_slice_whole, Rect.mem_set_unit]
  exact Iff.rfl

/-- Row `r` of the array is in the block of grid point `r / 512`: the blocks cover the array. -/
theorem cover_o (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 8 := N_0
  have ht : (i 0).val / 512 < cfg0.N := by rw [hN]; omega
  refine ⟨⟨(i 0).val / 512, ht⟩, flush0_8 _, ?_⟩
  rw [mem_blk_o]
  obtain ⟨e0, e1⟩ := idx_o ⟨(i 0).val / 512, ht⟩
  intro a
  match a with
  | ⟨0, _⟩ =>
    show win0_8.index ⟨(i 0).val / 512, ht⟩ (0 : Fin 2) * 512 ≤ (i 0).val ∧ (i 0).val < win0_8.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_8.index ⟨(i 0).val / 512, ht⟩ (1 : Fin 2) * 1024 ≤ (i 1).val ∧ (i 1).val < win0_8.index ⟨(i 0).val / 512, ht⟩ (1 : Fin 2) * 1024 + 1024
    rw [e1]; omega

/-- The array after the run is `G_o`. -/
theorem final_o_arr : (Fr.dats m 0 c).arrAt 8 cfg0.N = G_o m c :=
  (Fr.dats m 0 c).arrAt_eq_of_cover 8 (G_o m c) (fun t _ => flushed_o m c t) cover_o

/-- The output layer at row `i`, column `j`, is the row function of the arguments. -/
theorem final_o (i : Fin 4096) (j : Fin 1024) :
    (Fr.dats m 0 c).arrAt 8 cfg0.N (ix2 i j) = Cert.Row.o (WT m c) (HR m c i) (PR m c i) j := by
  rw [final_o_arr]; rfl

/-! ## The mixture weights (window 9) -/

/-- The mixture weights as one function of the arguments, index by index. -/
def G_pi : S4096x20.Idx → EReal := fun idx =>
  Cert.Row.pi (WT m c) (HR m c ⟨(idx 0).val, idx2_lt0 idx⟩) (PR m c ⟨(idx 0).val, idx2_lt0 idx⟩) ⟨(idx 1).val, idx2_lt1 idx⟩

theorem G_pi_apply (i : Fin 4096) (j : Fin 20) : G_pi m c (ix2 i j) = Cert.Row.pi (WT m c) (HR m c i) (PR m c i) j := rfl

/-- The window's index map, decided over the grid: block `t` of the rows, block 0 of the columns. -/
theorem idx_pi : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Element `(p, q)` of the block at grid point `t` sits at `(512 t + p, q)` in the array. -/
theorem emb_pi (t : Fin cfg0.N) (p : Fin 512) (q : Fin 20) :
    ((cfg0.win 9).blk t).view.emb (ix2 p q) = ix2 (Entry.row t p) q := by
  obtain ⟨e0, e1⟩ := idx_pi t
  funext a; apply Fin.ext
  match a with
  | ⟨0, _⟩ => show win0_9.index t (0 : Fin 2) * 512 + 1 * p.val = t.val * 512 + p.val; rw [e0]; omega
  | ⟨1, _⟩ => show win0_9.index t (1 : Fin 2) * 20 + 1 * q.val = q.val; rw [e1]; omega

/-- What grid point `t` writes back is block `t` of `G_pi`. -/
theorem flushed_pi (t : Fin cfg0.N) :
    (Fr.dats m 0 c).flushed 9 t = ((cfg0.win 9).blk t).view.read (Elt Ideal) (G_pi m c) := by
  show (cfg0.win 9).cut (grid0.coords t) ((Fr.dats m 0 c).after 9 t) = _
  rw [Fr.after0_9]
  unfold Fr.out0_9
  rw [View.canon_unit_zero hz]
  simp only [View.ld_unit_zero (S := S512x1024) hz, View.ld_unit_zero (S := S512x4096) hz, View.ld_unit_zero (S := S1024x4096) hz,
    View.ld_unit_zero (S := S1x2048) hz, View.ld_unit_zero (S := S1x1024) hz, View.ld_unit_zero (S := S1024x60) hz, View.ld_unit_zero (S := S1x60) hz]
  funext y
  obtain ⟨p, q, rfl⟩ : ∃ (p : Fin 512) (q : Fin 20), y = ix2 p q := ⟨y 0, y 1, eq_ix2 y⟩
  refine (Pay.pay_pi (Fr.iblk m c 0 t) (Fr.iblk m c 1 t) (Fr.iblk m c 2 t) (Fr.iblk m c 3 t) (Fr.iblk m c 4 t) (Fr.iblk m c 5 t)
    (Fr.iblk m c 6 t) (Fr.iblk m c 7 t) p q).trans ?_
  rw [wts_eq, hOf_eq, pOf_eq]
  exact (G_pi_apply m c (Entry.row t p) q).symm.trans (congrArg (G_pi m c) (emb_pi t p q).symm)

/-- An index of the array is in point `t`'s block iff each coordinate is in the block's range on its axis. -/
theorem mem_blk_pi (t : Fin cfg0.N) (i : S4096x20.Idx) :
    i ∈ ((cfg0.win 9).blk t).view.set ↔ ∀ a : Fin 2, win0_9.index t a * S512x20.size a ≤ (i a).val ∧ (i a).val < win0_9.index t a * S512x20.size a + S512x20.size a := by
  show i ∈ ((View.whole main_v22_1).slice (win0_9.rect t)).set ↔ _
  rw [View.set_slice_whole, Rect.mem_set_unit]
  exact Iff.rfl

/-- Row `r` of the array is in the block of grid point `r / 512`: the blocks cover the array. -/
theorem cover_pi (i : S4096x20.Idx) :
    ∃ t : Fin cfg0.N, (cfg0.win 9).flush t = true ∧ i ∈ ((cfg0.win 9).blk t).view.set := by
  have hi0 : (i 0).val < 4096 := (i 0).isLt
  have hi1 : (i 1).val < 20 := (i 1).isLt
  have hN : cfg0.N = 8 := N_0
  have ht : (i 0).val / 512 < cfg0.N := by rw [hN]; omega
  refine ⟨⟨(i 0).val / 512, ht⟩, flush0_9 _, ?_⟩
  rw [mem_blk_pi]
  obtain ⟨e0, e1⟩ := idx_pi ⟨(i 0).val / 512, ht⟩
  intro a
  match a with
  | ⟨0, _⟩ =>
    show win0_9.index ⟨(i 0).val / 512, ht⟩ (0 : Fin 2) * 512 ≤ (i 0).val ∧ (i 0).val < win0_9.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_9.index ⟨(i 0).val / 512, ht⟩ (1 : Fin 2) * 20 ≤ (i 1).val ∧ (i 1).val < win0_9.index ⟨(i 0).val / 512, ht⟩ (1 : Fin 2) * 20 + 20
    rw [e1]; omega

/-- The array after the run is `G_pi`. -/
theorem final_pi_arr : (Fr.dats m 0 c).arrAt 9 cfg0.N = G_pi m c :=
  (Fr.dats m 0 c).arrAt_eq_of_cover 9 (G_pi m c) (fun t _ => flushed_pi m c t) cover_pi

/-- The mixture weight `j` of row `i` is the row function of the arguments. -/
theorem final_pi (i : Fin 4096) (j : Fin 20) :
    (Fr.dats m 0 c).arrAt 9 cfg0.N (ix2 i j) = Cert.Row.pi (WT m c) (HR m c i) (PR m c i) j := by
  rw [final_pi_arr]; rfl

/-! ## The components' first coordinates (window 10) -/

/-- The components' first coordinates as one function of the arguments, index by index. -/
def G_mux : S4096x20.Idx → EReal := fun idx =>
  Cert.Row.mux (WT m c) (HR m c ⟨(idx 0).val, idx2_lt0 idx⟩) (PR m c ⟨(idx 0).val, idx2_lt0 idx⟩) ⟨(idx 1).val, idx2_lt1 idx⟩

theorem G_mux_apply (i : Fin 4096) (j : Fin 20) : G_mux m c (ix2 i j) = Cert.Row.mux (WT m c) (HR m c i) (PR m c i) j := rfl

/-- The window's index map, decided over the grid: block `t` of the rows, block 0 of the columns. -/
theorem idx_mux : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Element `(p, q)` of the block at grid point `t` sits at `(512 t + p, q)` in the array. -/
theorem emb_mux (t : Fin cfg0.N) (p : Fin 512) (q : Fin 20) :
    ((cfg0.win 10).blk t).view.emb (ix2 p q) = ix2 (Entry.row t p) q := by
  obtain ⟨e0, e1⟩ := idx_mux t
  funext a; apply Fin.ext
  match a with
  | ⟨0, _⟩ => show win0_10.index t (0 : Fin 2) * 512 + 1 * p.val = t.val * 512 + p.val; rw [e0]; omega
  | ⟨1, _⟩ => show win0_10.index t (1 : Fin 2) * 20 + 1 * q.val = q.val; rw [e1]; omega

/-- What grid point `t` writes back is block `t` of `G_mux`. -/
theorem flushed_mux (t : Fin cfg0.N) :
    (Fr.dats m 0 c).flushed 10 t = ((cfg0.win 10).blk t).view.read (Elt Ideal) (G_mux m c) := by
  show (cfg0.win 10).cut (grid0.coords t) ((Fr.dats m 0 c).after 10 t) = _
  rw [Fr.after0_10]
  unfold Fr.out0_10
  rw [View.canon_unit_zero hz]
  simp only [View.ld_unit_zero (S := S512x1024) hz, View.ld_unit_zero (S := S512x4096) hz, View.ld_unit_zero (S := S1024x4096) hz,
    View.ld_unit_zero (S := S1x2048) hz, View.ld_unit_zero (S := S1x1024) hz, View.ld_unit_zero (S := S1024x60) hz, View.ld_unit_zero (S := S1x60) hz]
  funext y
  obtain ⟨p, q, rfl⟩ : ∃ (p : Fin 512) (q : Fin 20), y = ix2 p q := ⟨y 0, y 1, eq_ix2 y⟩
  refine (Pay.pay_mux (Fr.iblk m c 0 t) (Fr.iblk m c 1 t) (Fr.iblk m c 2 t) (Fr.iblk m c 3 t) (Fr.iblk m c 4 t) (Fr.iblk m c 5 t)
    (Fr.iblk m c 6 t) (Fr.iblk m c 7 t) p q).trans ?_
  rw [wts_eq, hOf_eq, pOf_eq]
  exact (G_mux_apply m c (Entry.row t p) q).symm.trans (congrArg (G_mux m c) (emb_mux t p q).symm)

/-- An index of the array is in point `t`'s block iff each coordinate is in the block's range on its axis. -/
theorem mem_blk_mux (t : Fin cfg0.N) (i : S4096x20.Idx) :
    i ∈ ((cfg0.win 10).blk t).view.set ↔ ∀ a : Fin 2, win0_10.index t a * S512x20.size a ≤ (i a).val ∧ (i a).val < win0_10.index t a * S512x20.size a + S512x20.size a := by
  show i ∈ ((View.whole main_v22_2).slice (win0_10.rect t)).set ↔ _
  rw [View.set_slice_whole, Rect.mem_set_unit]
  exact Iff.rfl

/-- Row `r` of the array is in the block of grid point `r / 512`: the blocks cover the array. -/
theorem cover_mux (i : S4096x20.Idx) :
    ∃ t : Fin cfg0.N, (cfg0.win 10).flush t = true ∧ i ∈ ((cfg0.win 10).blk t).view.set := by
  have hi0 : (i 0).val < 4096 := (i 0).isLt
  have hi1 : (i 1).val < 20 := (i 1).isLt
  have hN : cfg0.N = 8 := N_0
  have ht : (i 0).val / 512 < cfg0.N := by rw [hN]; omega
  refine ⟨⟨(i 0).val / 512, ht⟩, flush0_10 _, ?_⟩
  rw [mem_blk_mux]
  obtain ⟨e0, e1⟩ := idx_mux ⟨(i 0).val / 512, ht⟩
  intro a
  match a with
  | ⟨0, _⟩ =>
    show win0_10.index ⟨(i 0).val / 512, ht⟩ (0 : Fin 2) * 512 ≤ (i 0).val ∧ (i 0).val < win0_10.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_10.index ⟨(i 0).val / 512, ht⟩ (1 : Fin 2) * 20 ≤ (i 1).val ∧ (i 1).val < win0_10.index ⟨(i 0).val / 512, ht⟩ (1 : Fin 2) * 20 + 20
    rw [e1]; omega

/-- The array after the run is `G_mux`. -/
theorem final_mux_arr : (Fr.dats m 0 c).arrAt 10 cfg0.N = G_mux m c :=
  (Fr.dats m 0 c).arrAt_eq_of_cover 10 (G_mux m c) (fun t _ => flushed_mux m c t) cover_mux

/-- The first coordinate of component `j` of row `i` is the row function of the arguments. -/
theorem final_mux (i : Fin 4096) (j : Fin 20) :
    (Fr.dats m 0 c).arrAt 10 cfg0.N (ix2 i j) = Cert.Row.mux (WT m c) (HR m c i) (PR m c i) j := by
  rw [final_mux_arr]; rfl

/-! ## The components' second coordinates (window 11) -/

/-- The components' second coordinates as one function of the arguments, index by index. -/
def G_muy : S4096x20.Idx → EReal := fun idx =>
  Cert.Row.muy (WT m c) (HR m c ⟨(idx 0).val, idx2_lt0 idx⟩) (PR m c ⟨(idx 0).val, idx2_lt0 idx⟩) ⟨(idx 1).val, idx2_lt1 idx⟩

theorem G_muy_apply (i : Fin 4096) (j : Fin 20) : G_muy m c (ix2 i j) = Cert.Row.muy (WT m c) (HR m c i) (PR m c i) j := rfl

/-- The window's index map, decided over the grid: block `t` of the rows, block 0 of the columns. -/
theorem idx_muy : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- Element `(p, q)` of the block at grid point `t` sits at `(512 t + p, q)` in the array. -/
theorem emb_muy (t : Fin cfg0.N) (p : Fin 512) (q : Fin 20) :
    ((cfg0.win 11).blk t).view.emb (ix2 p q) = ix2 (Entry.row t p) q := by
  obtain ⟨e0, e1⟩ := idx_muy t
  funext a; apply Fin.ext
  match a with
  | ⟨0, _⟩ => show win0_11.index t (0 : Fin 2) * 512 + 1 * p.val = t.val * 512 + p.val; rw [e0]; omega
  | ⟨1, _⟩ => show win0_11.index t (1 : Fin 2) * 20 + 1 * q.val = q.val; rw [e1]; omega

/-- What grid point `t` writes back is block `t` of `G_muy`. -/
theorem flushed_muy (t : Fin cfg0.N) :
    (Fr.dats m 0 c).flushed 11 t = ((cfg0.win 11).blk t).view.read (Elt Ideal) (G_muy m c) := by
  show (cfg0.win 11).cut (grid0.coords t) ((Fr.dats m 0 c).after 11 t) = _
  rw [Fr.after0_11]
  unfold Fr.out0_11
  rw [View.canon_unit_zero hz]
  simp only [View.ld_unit_zero (S := S512x1024) hz, View.ld_unit_zero (S := S512x4096) hz, View.ld_unit_zero (S := S1024x4096) hz,
    View.ld_unit_zero (S := S1x2048) hz, View.ld_unit_zero (S := S1x1024) hz, View.ld_unit_zero (S := S1024x60) hz, View.ld_unit_zero (S := S1x60) hz]
  funext y
  obtain ⟨p, q, rfl⟩ : ∃ (p : Fin 512) (q : Fin 20), y = ix2 p q := ⟨y 0, y 1, eq_ix2 y⟩
  refine (Pay.pay_muy (Fr.iblk m c 0 t) (Fr.iblk m c 1 t) (Fr.iblk m c 2 t) (Fr.iblk m c 3 t) (Fr.iblk m c 4 t) (Fr.iblk m c 5 t)
    (Fr.iblk m c 6 t) (Fr.iblk m c 7 t) p q).trans ?_
  rw [wts_eq, hOf_eq, pOf_eq]
  exact (G_muy_apply m c (Entry.row t p) q).symm.trans (congrArg (G_muy m c) (emb_muy t p q).symm)

/-- An index of the array is in point `t`'s block iff each coordinate is in the block's range on its axis. -/
theorem mem_blk_muy (t : Fin cfg0.N) (i : S4096x20.Idx) :
    i ∈ ((cfg0.win 11).blk t).view.set ↔ ∀ a : Fin 2, win0_11.index t a * S512x20.size a ≤ (i a).val ∧ (i a).val < win0_11.index t a * S512x20.size a + S512x20.size a := by
  show i ∈ ((View.whole main_v22_3).slice (win0_11.rect t)).set ↔ _
  rw [View.set_slice_whole, Rect.mem_set_unit]
  exact Iff.rfl

/-- Row `r` of the array is in the block of grid point `r / 512`: the blocks cover the array. -/
theorem cover_muy (i : S4096x20.Idx) :
    ∃ t : Fin cfg0.N, (cfg0.win 11).flush t = true ∧ i ∈ ((cfg0.win 11).blk t).view.set := by
  have hi0 : (i 0).val < 4096 := (i 0).isLt
  have hi1 : (i 1).val < 20 := (i 1).isLt
  have hN : cfg0.N = 8 := N_0
  have ht : (i 0).val / 512 < cfg0.N := by rw [hN]; omega
  refine ⟨⟨(i 0).val / 512, ht⟩, flush0_11 _, ?_⟩
  rw [mem_blk_muy]
  obtain ⟨e0, e1⟩ := idx_muy ⟨(i 0).val / 512, ht⟩
  intro a
  match a with
  | ⟨0, _⟩ =>
    show win0_11.index ⟨(i 0).val / 512, ht⟩ (0 : Fin 2) * 512 ≤ (i 0).val ∧ (i 0).val < win0_11.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_11.index ⟨(i 0).val / 512, ht⟩ (1 : Fin 2) * 20 ≤ (i 1).val ∧ (i 1).val < win0_11.index ⟨(i 0).val / 512, ht⟩ (1 : Fin 2) * 20 + 20
    rw [e1]; omega

/-- The array after the run is `G_muy`. -/
theorem final_muy_arr : (Fr.dats m 0 c).arrAt 11 cfg0.N = G_muy m c :=
  (Fr.dats m 0 c).arrAt_eq_of_cover 11 (G_muy m c) (fun t _ => flushed_muy m c t) cover_muy

/-- The second coordinate of component `j` of row `i` is the row function of the arguments. -/
theorem final_muy (i : Fin 4096) (j : Fin 20) :
    (Fr.dats m 0 c).arrAt 11 cfg0.N (ix2 i j) = Cert.Row.muy (WT m c) (HR m c i) (PR m c i) j := by
  rw [final_muy_arr]; rfl

/-! ## The predicted first coordinate (window 12) -/

/-- The predicted first coordinate as one function of the arguments, index by index. -/
def G_xp : S4096x1.Idx → EReal := fun idx =>
  Cert.Row.xp (WT m c) (HR m c ⟨(idx 0).val, idx2_lt0 idx⟩) (PR m c ⟨(idx 0).val, idx2_lt0 idx⟩)

theorem G_xp_apply (i : Fin 4096) : G_xp m c (ix2 i 0) = Cert.Row.xp (WT m c) (HR m c i) (PR m c i) := rfl

/-- The window's index map, decided over the grid: block `t` of the rows, block 0 of the columns. -/
theorem idx_xp : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Element `(p, q)` of the block at grid point `t` sits at `(512 t + p, q)` in the array. -/
theorem emb_xp (t : Fin cfg0.N) (p : Fin 512) (q : Fin 1) :
    ((cfg0.win 12).blk t).view.emb (ix2 p q) = ix2 (Entry.row t p) q := by
  obtain ⟨e0, e1⟩ := idx_xp t
  funext a; apply Fin.ext
  match a with
  | ⟨0, _⟩ => show win0_12.index t (0 : Fin 2) * 512 + 1 * p.val = t.val * 512 + p.val; rw [e0]; omega
  | ⟨1, _⟩ => show win0_12.index t (1 : Fin 2) * 1 + 1 * q.val = q.val; rw [e1]; omega

/-- What grid point `t` writes back is block `t` of `G_xp`. -/
theorem flushed_xp (t : Fin cfg0.N) :
    (Fr.dats m 0 c).flushed 12 t = ((cfg0.win 12).blk t).view.read (Elt Ideal) (G_xp m c) := by
  show (cfg0.win 12).cut (grid0.coords t) ((Fr.dats m 0 c).after 12 t) = _
  rw [Fr.after0_12]
  unfold Fr.out0_12
  rw [View.canon_unit_zero hz]
  simp only [View.ld_unit_zero (S := S512x1024) hz, View.ld_unit_zero (S := S512x4096) hz, View.ld_unit_zero (S := S1024x4096) hz,
    View.ld_unit_zero (S := S1x2048) hz, View.ld_unit_zero (S := S1x1024) hz, View.ld_unit_zero (S := S1024x60) hz, View.ld_unit_zero (S := S1x60) hz]
  funext y
  obtain ⟨p, q, rfl⟩ : ∃ (p : Fin 512) (q : Fin 1), y = ix2 p q := ⟨y 0, y 1, eq_ix2 y⟩
  obtain rfl : q = 0 := Subsingleton.elim _ _
  refine (Pay.pay_xp (Fr.iblk m c 0 t) (Fr.iblk m c 1 t) (Fr.iblk m c 2 t) (Fr.iblk m c 3 t) (Fr.iblk m c 4 t) (Fr.iblk m c 5 t)
    (Fr.iblk m c 6 t) (Fr.iblk m c 7 t) p).trans ?_
  rw [wts_eq, hOf_eq, pOf_eq]
  exact (G_xp_apply m c (Entry.row t p)).symm.trans (congrArg (G_xp m c) (emb_xp t p (0 : Fin 1)).symm)

/-- An index of the array is in point `t`'s block iff each coordinate is in the block's range on its axis. -/
theorem mem_blk_xp (t : Fin cfg0.N) (i : S4096x1.Idx) :
    i ∈ ((cfg0.win 12).blk t).view.set ↔ ∀ a : Fin 2, win0_12.index t a * S512x1.size a ≤ (i a).val ∧ (i a).val < win0_12.index t a * S512x1.size a + S512x1.size a := by
  show i ∈ ((View.whole main_v22_4).slice (win0_12.rect t)).set ↔ _
  rw [View.set_slice_whole, Rect.mem_set_unit]
  exact Iff.rfl

/-- Row `r` of the array is in the block of grid point `r / 512`: the blocks cover the array. -/
theorem cover_xp (i : S4096x1.Idx) :
    ∃ t : Fin cfg0.N, (cfg0.win 12).flush t = true ∧ i ∈ ((cfg0.win 12).blk t).view.set := by
  have hi0 : (i 0).val < 4096 := (i 0).isLt
  have hi1 : (i 1).val < 1 := (i 1).isLt
  have hN : cfg0.N = 8 := N_0
  have ht : (i 0).val / 512 < cfg0.N := by rw [hN]; omega
  refine ⟨⟨(i 0).val / 512, ht⟩, flush0_12 _, ?_⟩
  rw [mem_blk_xp]
  obtain ⟨e0, e1⟩ := idx_xp ⟨(i 0).val / 512, ht⟩
  intro a
  match a with
  | ⟨0, _⟩ =>
    show win0_12.index ⟨(i 0).val / 512, ht⟩ (0 : Fin 2) * 512 ≤ (i 0).val ∧ (i 0).val < win0_12.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_12.index ⟨(i 0).val / 512, ht⟩ (1 : Fin 2) * 1 ≤ (i 1).val ∧ (i 1).val < win0_12.index ⟨(i 0).val / 512, ht⟩ (1 : Fin 2) * 1 + 1
    rw [e1]; omega

/-- The array after the run is `G_xp`. -/
theorem final_xp_arr : (Fr.dats m 0 c).arrAt 12 cfg0.N = G_xp m c :=
  (Fr.dats m 0 c).arrAt_eq_of_cover 12 (G_xp m c) (fun t _ => flushed_xp m c t) cover_xp

/-- The predicted first coordinate of row `i` is the row function of the arguments. -/
theorem final_xp (i : Fin 4096) :
    (Fr.dats m 0 c).arrAt 12 cfg0.N (ix2 i 0) = Cert.Row.xp (WT m c) (HR m c i) (PR m c i) := by
  rw [final_xp_arr]; rfl

/-! ## The predicted second coordinate (window 13) -/

/-- The predicted second coordinate as one function of the arguments, index by index. -/
def G_yp : S4096x1.Idx → EReal := fun idx =>
  Cert.Row.yp (WT m c) (HR m c ⟨(idx 0).val, idx2_lt0 idx⟩) (PR m c ⟨(idx 0).val, idx2_lt0 idx⟩)

theorem G_yp_apply (i : Fin 4096) : G_yp m c (ix2 i 0) = Cert.Row.yp (WT m c) (HR m c i) (PR m c i) := rfl

/-- The window's index map, decided over the grid: block `t` of the rows, block 0 of the columns. -/
theorem idx_yp : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- Element `(p, q)` of the block at grid point `t` sits at `(512 t + p, q)` in the array. -/
theorem emb_yp (t : Fin cfg0.N) (p : Fin 512) (q : Fin 1) :
    ((cfg0.win 13).blk t).view.emb (ix2 p q) = ix2 (Entry.row t p) q := by
  obtain ⟨e0, e1⟩ := idx_yp t
  funext a; apply Fin.ext
  match a with
  | ⟨0, _⟩ => show win0_13.index t (0 : Fin 2) * 512 + 1 * p.val = t.val * 512 + p.val; rw [e0]; omega
  | ⟨1, _⟩ => show win0_13.index t (1 : Fin 2) * 1 + 1 * q.val = q.val; rw [e1]; omega

/-- What grid point `t` writes back is block `t` of `G_yp`. -/
theorem flushed_yp (t : Fin cfg0.N) :
    (Fr.dats m 0 c).flushed 13 t = ((cfg0.win 13).blk t).view.read (Elt Ideal) (G_yp m c) := by
  show (cfg0.win 13).cut (grid0.coords t) ((Fr.dats m 0 c).after 13 t) = _
  rw [Fr.after0_13]
  unfold Fr.out0_13
  rw [View.canon_unit_zero hz]
  simp only [View.ld_unit_zero (S := S512x1024) hz, View.ld_unit_zero (S := S512x4096) hz, View.ld_unit_zero (S := S1024x4096) hz,
    View.ld_unit_zero (S := S1x2048) hz, View.ld_unit_zero (S := S1x1024) hz, View.ld_unit_zero (S := S1024x60) hz, View.ld_unit_zero (S := S1x60) hz]
  funext y
  obtain ⟨p, q, rfl⟩ : ∃ (p : Fin 512) (q : Fin 1), y = ix2 p q := ⟨y 0, y 1, eq_ix2 y⟩
  obtain rfl : q = 0 := Subsingleton.elim _ _
  refine (Pay.pay_yp (Fr.iblk m c 0 t) (Fr.iblk m c 1 t) (Fr.iblk m c 2 t) (Fr.iblk m c 3 t) (Fr.iblk m c 4 t) (Fr.iblk m c 5 t)
    (Fr.iblk m c 6 t) (Fr.iblk m c 7 t) p).trans ?_
  rw [wts_eq, hOf_eq, pOf_eq]
  exact (G_yp_apply m c (Entry.row t p)).symm.trans (congrArg (G_yp m c) (emb_yp t p (0 : Fin 1)).symm)

/-- An index of the array is in point `t`'s block iff each coordinate is in the block's range on its axis. -/
theorem mem_blk_yp (t : Fin cfg0.N) (i : S4096x1.Idx) :
    i ∈ ((cfg0.win 13).blk t).view.set ↔ ∀ a : Fin 2, win0_13.index t a * S512x1.size a ≤ (i a).val ∧ (i a).val < win0_13.index t a * S512x1.size a + S512x1.size a := by
  show i ∈ ((View.whole main_v22_5).slice (win0_13.rect t)).set ↔ _
  rw [View.set_slice_whole, Rect.mem_set_unit]
  exact Iff.rfl

/-- Row `r` of the array is in the block of grid point `r / 512`: the blocks cover the array. -/
theorem cover_yp (i : S4096x1.Idx) :
    ∃ t : Fin cfg0.N, (cfg0.win 13).flush t = true ∧ i ∈ ((cfg0.win 13).blk t).view.set := by
  have hi0 : (i 0).val < 4096 := (i 0).isLt
  have hi1 : (i 1).val < 1 := (i 1).isLt
  have hN : cfg0.N = 8 := N_0
  have ht : (i 0).val / 512 < cfg0.N := by rw [hN]; omega
  refine ⟨⟨(i 0).val / 512, ht⟩, flush0_13 _, ?_⟩
  rw [mem_blk_yp]
  obtain ⟨e0, e1⟩ := idx_yp ⟨(i 0).val / 512, ht⟩
  intro a
  match a with
  | ⟨0, _⟩ =>
    show win0_13.index ⟨(i 0).val / 512, ht⟩ (0 : Fin 2) * 512 ≤ (i 0).val ∧ (i 0).val < win0_13.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_13.index ⟨(i 0).val / 512, ht⟩ (1 : Fin 2) * 1 ≤ (i 1).val ∧ (i 1).val < win0_13.index ⟨(i 0).val / 512, ht⟩ (1 : Fin 2) * 1 + 1
    rw [e1]; omega

/-- The array after the run is `G_yp`. -/
theorem final_yp_arr : (Fr.dats m 0 c).arrAt 13 cfg0.N = G_yp m c :=
  (Fr.dats m 0 c).arrAt_eq_of_cover 13 (G_yp m c) (fun t _ => flushed_yp m c t) cover_yp

/-- The predicted second coordinate of row `i` is the row function of the arguments. -/
theorem final_yp (i : Fin 4096) :
    (Fr.dats m 0 c).arrAt 13 cfg0.N (ix2 i 0) = Cert.Row.yp (WT m c) (HR m c i) (PR m c i) := by
  rw [final_yp_arr]; rfl

/-! ## The new state (window 14) -/

/-- The new state as one function of the arguments, index by index. -/
def G_hnew : S4096x1024.Idx → EReal := fun idx =>
  Cert.Row.hnew (WT m c) (HR m c ⟨(idx 0).val, idx2_lt0 idx⟩) (PR m c ⟨(idx 0).val, idx2_lt0 idx⟩) ⟨(idx 1).val, idx2_lt1 idx⟩

theorem G_hnew_apply (i : Fin 4096) (j : Fin 1024) : G_hnew m c (ix2 i j) = Cert.Row.hnew (WT m c) (HR m c i) (PR m c i) j := rfl

/-- The window's index map, decided over the grid: block `t` of the rows, block 0 of the columns. -/
theorem idx_hnew : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- Element `(p, q)` of the block at grid point `t` sits at `(512 t + p, q)` in the array. -/
theorem emb_hnew (t : Fin cfg0.N) (p : Fin 512) (q : Fin 1024) :
    ((cfg0.win 14).blk t).view.emb (ix2 p q) = ix2 (Entry.row t p) q := by
  obtain ⟨e0, e1⟩ := idx_hnew t
  funext a; apply Fin.ext
  match a with
  | ⟨0, _⟩ => show win0_14.index t (0 : Fin 2) * 512 + 1 * p.val = t.val * 512 + p.val; rw [e0]; omega
  | ⟨1, _⟩ => show win0_14.index t (1 : Fin 2) * 1024 + 1 * q.val = q.val; rw [e1]; omega

/-- What grid point `t` writes back is block `t` of `G_hnew`. -/
theorem flushed_hnew (t : Fin cfg0.N) :
    (Fr.dats m 0 c).flushed 14 t = ((cfg0.win 14).blk t).view.read (Elt Ideal) (G_hnew m c) := by
  show (cfg0.win 14).cut (grid0.coords t) ((Fr.dats m 0 c).after 14 t) = _
  rw [Fr.after0_14]
  unfold Fr.out0_14
  rw [View.canon_unit_zero hz]
  simp only [View.ld_unit_zero (S := S512x1024) hz, View.ld_unit_zero (S := S512x4096) hz, View.ld_unit_zero (S := S1024x4096) hz,
    View.ld_unit_zero (S := S1x2048) hz, View.ld_unit_zero (S := S1x1024) hz]
  funext y
  obtain ⟨p, q, rfl⟩ : ∃ (p : Fin 512) (q : Fin 1024), y = ix2 p q := ⟨y 0, y 1, eq_ix2 y⟩
  refine (Pay.pay_hnew (Fr.iblk m c 0 t) (Fr.iblk m c 1 t) (Fr.iblk m c 2 t) (Fr.iblk m c 3 t) (Fr.iblk m c 4 t) (Fr.iblk m c 5 t)
    (Fr.iblk m c 6 t) (Fr.iblk m c 7 t) p q).trans ?_
  rw [wts_eq, hOf_eq, pOf_eq]
  exact (G_hnew_apply m c (Entry.row t p) q).symm.trans (congrArg (G_hnew m c) (emb_hnew t p q).symm)

/-- An index of the array is in point `t`'s block iff each coordinate is in the block's range on its axis. -/
theorem mem_blk_hnew (t : Fin cfg0.N) (i : S4096x1024.Idx) :
    i ∈ ((cfg0.win 14).blk t).view.set ↔ ∀ a : Fin 2, win0_14.index t a * S512x1024.size a ≤ (i a).val ∧ (i a).val < win0_14.index t a * S512x1024.size a + S512x1024.size a := by
  show i ∈ ((View.whole main_v22_6).slice (win0_14.rect t)).set ↔ _
  rw [View.set_slice_whole, Rect.mem_set_unit]
  exact Iff.rfl

/-- Row `r` of the array is in the block of grid point `r / 512`: the blocks cover the array. -/
theorem cover_hnew (i : S4096x1024.Idx) :
    ∃ t : Fin cfg0.N, (cfg0.win 14).flush t = true ∧ i ∈ ((cfg0.win 14).blk t).view.set := by
  have hi0 : (i 0).val < 4096 := (i 0).isLt
  have hi1 : (i 1).val < 1024 := (i 1).isLt
  have hN : cfg0.N = 8 := N_0
  have ht : (i 0).val / 512 < cfg0.N := by rw [hN]; omega
  refine ⟨⟨(i 0).val / 512, ht⟩, flush0_14 _, ?_⟩
  rw [mem_blk_hnew]
  obtain ⟨e0, e1⟩ := idx_hnew ⟨(i 0).val / 512, ht⟩
  intro a
  match a with
  | ⟨0, _⟩ =>
    show win0_14.index ⟨(i 0).val / 512, ht⟩ (0 : Fin 2) * 512 ≤ (i 0).val ∧ (i 0).val < win0_14.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_14.index ⟨(i 0).val / 512, ht⟩ (1 : Fin 2) * 1024 ≤ (i 1).val ∧ (i 1).val < win0_14.index ⟨(i 0).val / 512, ht⟩ (1 : Fin 2) * 1024 + 1024
    rw [e1]; omega

/-- The array after the run is `G_hnew`. -/
theorem final_hnew_arr : (Fr.dats m 0 c).arrAt 14 cfg0.N = G_hnew m c :=
  (Fr.dats m 0 c).arrAt_eq_of_cover 14 (G_hnew m c) (fun t _ => flushed_hnew m c t) cover_hnew

/-- The new state at row `i`, column `j`, is the row function of the arguments. -/
theorem final_hnew (i : Fin 4096) (j : Fin 1024) :
    (Fr.dats m 0 c).arrAt 14 cfg0.N (ix2 i j) = Cert.Row.hnew (WT m c) (HR m c i) (PR m c i) j := by
  rw [final_hnew_arr]; rfl

end Cert.KernelIdeal.Arr
end
-- ==== Proof.RefRows.lean ====
/-
  The reference's stages, read at an index, are the row function of the argument arrays.

  Each lemma reads one stage of the reference at batch row `i` and column `j` and identifies it with the
  corresponding entry of the row function `Cert.Row` at the weights `Cert.Args.wts`, the previous state's row
  `Cert.Args.hrow a1 i` and the input projection's row `Cert.Args.prow a0 a1 a4 a6 i`:

    gate pre-activations  →  zr        the two sigmoids, spelled 1 / (1 + exp (−x))  →  z, r
    candidate             →  hh        new state  →  hnew        output layer  →  o
    mixture layer         →  gmm       clamped exponentials  →  e,  their sum  →  den
    mixture weights       →  pi        component coordinates  →  mux, muy        predictions  →  xp, yp

  The sigmoid 1 / (1 + exp (−x)) with the literal 1.0 is the logistic function because the literal's value is the
  real number one; the float sums start from the zero literal, whose value is zero; slices and broadcasts only
  re-index, and each composed index map is an explicit pair of coordinates.
-/
import proofs.«139136_j86492051407610_1_alg».proof.Proof.ReadP
import proofs.«139136_j86492051407610_1_alg».proof.Proof.ArgSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows
open Cert.ReferenceIdeal Cert.ReferenceIdeal.Read Idealize.ShloMosaic Idealize.ShloMosaic.ValueIdx

variable (a0 : (⟨S4096x1, .i32⟩ : BufTy).Contents (Elt Ideal)) (a1 : (⟨S4096x1026, .f32⟩ : BufTy).Contents (Elt Ideal))
  (a2 : (⟨S1024, .f32⟩ : BufTy).Contents (Elt Ideal)) (a3 : (⟨S1024x4096, .f32⟩ : BufTy).Contents (Elt Ideal))
  (a4 : (⟨S5000x4096, .f32⟩ : BufTy).Contents (Elt Ideal)) (a5 : (⟨S3072, .f32⟩ : BufTy).Contents (Elt Ideal))
  (a6 : (⟨S2x4096, .f32⟩ : BufTy).Contents (Elt Ideal)) (a7 : (⟨S1024x60, .f32⟩ : BufTy).Contents (Elt Ideal))
  (a8 : (⟨S60, .f32⟩ : BufTy).Contents (Elt Ideal))

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

/-- The literal `1.0` is the real number one. -/
theorem one_bits : Ideal.ofBits .f32 0x3F800000#32 = 1 := by
  simp [Ideal.ofBits, Ideal.ieee, -EReal.coe_mul]; norm_num

/-- The previous state's slice at `(i, k)` is row `i` of the state at `k`. -/
theorem ref_h (i : Fin 4096) (k : Fin 1024) :
    val_main_v0 (F := Ideal) a1 (ix2 i k) = Cert.Args.hrow a1 i k := by
  rw [val_main_v0_apply]
  exact congrArg a1 (by idx2)

/-- Both gates' pre-activations: Σ_k h k · rk k j + pre j + bzr j. -/
theorem ref_zr (i : Fin 4096) (j : Fin 2048) :
    val_main_v20 (F := Ideal) a0 a1 a2 a3 a4 a5 a6 (ix2 i j)
      = Cert.Row.zr (Cert.Args.wts a2 a3 a5 a7 a8) (Cert.Args.hrow a1 i) (Cert.Args.prow a0 a1 a4 a6 i) j := by
  rw [val_main_v20_apply, val_main_v15_apply, val_main_v13_apply, val_main_v14_apply, val_main_v19_apply,
    val_main_v18_apply]
  simp only [Ideal.addf_def]
  refine congrArg₂ (· + ·) (congrArg₂ (· + ·) (Finset.sum_congr rfl fun k _ => ?_) ?_) ?_
  · have el : lidx_main_v13 (ix2 i j) k = ix2 i k := by idx2
    rw [el, ref_h, val_main_v12_apply]
    exact congrArg (Cert.Args.hrow a1 i k * ·) (congrArg a3 (by idx2))
  · exact congrArg (val_main_v11 (F := Ideal) a0 a1 a4 a6) (by idx2)
  · exact congrArg (val_main_v17 (F := Ideal) a2 a5) (by idx1)

/-- The update gate: 1 / (1 + exp (−zr j)) is the logistic function of zr j. -/
theorem ref_z (i : Fin 4096) (j : Fin 1024) :
    val_main_v27 (F := Ideal) a0 a1 a2 a3 a4 a5 a6 (ix2 i j) = Cert.Row.z (Cert.Args.wts a2 a3 a5 a7 a8) (Cert.Args.hrow a1 i) (Cert.Args.prow a0 a1 a4 a6 i) j := by
  rw [val_main_v27_apply, val_main_v26_apply, val_main_cst_1_apply, val_main_v25_apply, val_main_v24_apply,
    val_main_cst_apply, val_main_v23_apply, val_main_v22_apply, val_main_v21_apply]
  have e : idx_main_v21 (ix2 i j) = ix2 i (⟨j.val, by omega⟩ : Fin 2048) := by idx2
  rw [e, ref_zr a0 a1 a2 a3 a4 a5 a6 a7 a8]
  simp only [Ideal.hostDivf_def, Ideal.addf_def, Ideal.hostUnary_exp_def, Ideal.hostNegf_def, Ideal.negf_def,
    Ideal.ofBits_def, one_bits]
  rfl

/-- The reset gate: the same sigmoid of zr (1024 + j). -/
theorem ref_r (i : Fin 4096) (j : Fin 1024) :
    val_main_v34 (F := Ideal) a0 a1 a2 a3 a4 a5 a6 (ix2 i j) = Cert.Row.r (Cert.Args.wts a2 a3 a5 a7 a8) (Cert.Args.hrow a1 i) (Cert.Args.prow a0 a1 a4 a6 i) j := by
  rw [val_main_v34_apply, val_main_v33_apply, val_main_cst_3_apply, val_main_v32_apply, val_main_v31_apply,
    val_main_cst_2_apply, val_main_v30_apply, val_main_v29_apply, val_main_v28_apply]
  have e : idx_main_v28 (ix2 i j) = ix2 i (⟨1024 + j.val, by omega⟩ : Fin 2048) := by idx2
  rw [e, ref_zr a0 a1 a2 a3 a4 a5 a6 a7 a8]
  simp only [Ideal.hostDivf_def, Ideal.addf_def, Ideal.hostUnary_exp_def, Ideal.hostNegf_def, Ideal.negf_def,
    Ideal.ofBits_def, one_bits]
  rfl

/-- The candidate state: tanh (Σ_k (r k · h k) · rk k (2048 + j) + pre (2048 + j) + bh j). -/
theorem ref_hh (i : Fin 4096) (j : Fin 1024) :
    val_main_v44 (F := Ideal) a0 a1 a2 a3 a4 a5 a6 (ix2 i j) = Cert.Row.hh (Cert.Args.wts a2 a3 a5 a7 a8) (Cert.Args.hrow a1 i) (Cert.Args.prow a0 a1 a4 a6 i) j := by
  rw [val_main_v44_apply, val_main_v43_apply, val_main_v39_apply, val_main_v37_apply, val_main_v38_apply,
    val_main_v42_apply, val_main_v41_apply, val_main_v40_apply]
  simp only [Ideal.addf_def, Ideal.hostUnary_tanh_def]
  refine congrArg Ideal.tanh
    (congrArg₂ (· + ·) (congrArg₂ (· + ·) (Finset.sum_congr rfl fun k _ => ?_) ?_) ?_)
  · have el : lidx_main_v37 (ix2 i j) k = ix2 i k := by idx2
    rw [el, val_main_v35_apply, ref_r a0 a1 a2 a3 a4 a5 a6 a7 a8, ref_h, val_main_v36_apply, Ideal.mulf_def]
    exact congrArg (Cert.Row.r (Cert.Args.wts a2 a3 a5 a7 a8) (Cert.Args.hrow a1 i) (Cert.Args.prow a0 a1 a4 a6 i) k * Cert.Args.hrow a1 i k * ·) (congrArg a3 (by idx2))
  · exact congrArg (val_main_v11 (F := Ideal) a0 a1 a4 a6) (by idx2)
  · exact congrArg a5 (by idx1)

/-- The new state: z j · h j + (1 − z j) · hh j. -/
theorem ref_hnew (i : Fin 4096) (j : Fin 1024) :
    val_main_v49 (F := Ideal) a0 a1 a2 a3 a4 a5 a6 (ix2 i j) = Cert.Row.hnew (Cert.Args.wts a2 a3 a5 a7 a8) (Cert.Args.hrow a1 i) (Cert.Args.prow a0 a1 a4 a6 i) j := by
  rw [val_main_v49_apply, val_main_v45_apply, val_main_v48_apply, val_main_v47_apply, val_main_v46_apply,
    val_main_cst_4_apply, ref_z a0 a1 a2 a3 a4 a5 a6 a7 a8, ref_h, ref_hh a0 a1 a2 a3 a4 a5 a6 a7 a8]
  rfl

/-- The output layer: tanh (Σ_k hnew k · rk k (3072 + j) + pre (3072 + j) + bo j). -/
theorem ref_o (i : Fin 4096) (j : Fin 1024) :
    val_main_v58 (F := Ideal) a0 a1 a2 a3 a4 a5 a6 (ix2 i j) = Cert.Row.o (Cert.Args.wts a2 a3 a5 a7 a8) (Cert.Args.hrow a1 i) (Cert.Args.prow a0 a1 a4 a6 i) j := by
  rw [val_main_v58_apply, val_main_v57_apply, val_main_v53_apply, val_main_v51_apply, val_main_v52_apply,
    val_main_v56_apply, val_main_v55_apply, val_main_v54_apply]
  simp only [Ideal.addf_def, Ideal.hostUnary_tanh_def]
  refine congrArg Ideal.tanh
    (congrArg₂ (· + ·) (congrArg₂ (· + ·) (Finset.sum_congr rfl fun k _ => ?_) ?_) ?_)
  · have el : lidx_main_v51 (ix2 i j) k = ix2 i k := by idx2
    rw [el, ref_hnew, val_main_v50_apply]
    exact congrArg (Cert.Row.hnew (Cert.Args.wts a2 a3 a5 a7 a8) (Cert.Args.hrow a1 i) (Cert.Args.prow a0 a1 a4 a6 i) k * ·) (congrArg a3 (by idx2))
  · exact congrArg (val_main_v11 (F := Ideal) a0 a1 a4 a6) (by idx2)
  · exact congrArg a5 (by idx1)

/-- The mixture layer: Σ_k o k · wg k j + bg j. -/
theorem ref_gmm (i : Fin 4096) (j : Fin 60) :
    val_main_v62 (F := Ideal) a0 a1 a2 a3 a4 a5 a6 a7 a8 (ix2 i j) = Cert.Row.gmm (Cert.Args.wts a2 a3 a5 a7 a8) (Cert.Args.hrow a1 i) (Cert.Args.prow a0 a1 a4 a6 i) j := by
  rw [val_main_v62_apply, val_main_v59_apply, val_main_v61_apply, val_main_v60_apply]
  simp only [Ideal.addf_def]
  refine congrArg₂ (· + ·) (Finset.sum_congr rfl fun k _ => ?_) ?_
  · have el : lidx_main_v59 (ix2 i j) k = ix2 i k := by idx2
    rw [el, ref_o]
    exact congrArg (Cert.Row.o (Cert.Args.wts a2 a3 a5 a7 a8) (Cert.Args.hrow a1 i) (Cert.Args.prow a0 a1 a4 a6 i) k * ·) (congrArg a7 (by idx2))
  · exact congrArg a8 (by idx1)

/-- The clamped exponentials: min hi (max lo (exp (gmm j))). -/
theorem ref_e (i : Fin 4096) (j : Fin 20) :
    val_main_v67 (F := Ideal) a0 a1 a2 a3 a4 a5 a6 a7 a8 (ix2 i j) = Cert.Row.e (Cert.Args.wts a2 a3 a5 a7 a8) (Cert.Args.hrow a1 i) (Cert.Args.prow a0 a1 a4 a6 i) j := by
  rw [val_main_v67_apply, val_main_call0_v4_apply, val_main_call0_v3_apply, val_main_cst_6_apply,
    val_main_call0_v2_apply, val_main_call0_v1_apply, val_main_call0_v0_apply, val_main_cst_5_apply,
    val_main_v66_apply, val_main_v63_apply]
  have e : idx_main_v63 (ix2 i j) = ix2 i (⟨j.val, by omega⟩ : Fin 60) := by idx2
  rw [e, ref_gmm]
  simp only [Ideal.minimumf_def, Ideal.maximumf_def, Ideal.hostUnary_exp_def, Ideal.ofBits_def]
  rfl

/-- Their sum: the float sum starts from the zero literal. -/
theorem ref_den (i : Fin 4096) :
    val_main_v68 (F := Ideal) a0 a1 a2 a3 a4 a5 a6 a7 a8 (ix1 i) = Cert.Row.den (Cert.Args.wts a2 a3 a5 a7 a8) (Cert.Args.hrow a1 i) (Cert.Args.prow a0 a1 a4 a6 i) := by
  rw [val_main_v68_apply, val_main_cst_7_apply, Ideal.ofBits_def, Ideal.ofBits_zero_f32, zero_add]
  refine Finset.sum_congr rfl fun k _ => ?_
  have e : idx_main_v68 (ix1 i) k = ix2 i k := by idx2
  rw [e, ref_e]

/-- The mixture weights: e j / Σ_j e j. -/
theorem ref_pi (i : Fin 4096) (j : Fin 20) :
    val_main_v71 (F := Ideal) a0 a1 a2 a3 a4 a5 a6 a7 a8 (ix2 i j) = Cert.Row.pi (Cert.Args.wts a2 a3 a5 a7 a8) (Cert.Args.hrow a1 i) (Cert.Args.prow a0 a1 a4 a6 i) j := by
  rw [val_main_v71_apply, val_main_v70_apply, val_main_v69_apply, ref_e]
  have e : idx_main_v69 (idx_main_v70 (ix2 i j)) = ix1 i := by idx1
  rw [e, ref_den]
  rfl

/-- The components' first coordinates: gmm (20 + j). -/
theorem ref_mux (i : Fin 4096) (j : Fin 20) :
    val_main_v64 (F := Ideal) a0 a1 a2 a3 a4 a5 a6 a7 a8 (ix2 i j) = Cert.Row.mux (Cert.Args.wts a2 a3 a5 a7 a8) (Cert.Args.hrow a1 i) (Cert.Args.prow a0 a1 a4 a6 i) j := by
  rw [val_main_v64_apply]
  have e : idx_main_v64 (ix2 i j) = ix2 i (⟨20 + j.val, by omega⟩ : Fin 60) := by idx2
  rw [e, ref_gmm]
  rfl

/-- The components' second coordinates: gmm (40 + j). -/
theorem ref_muy (i : Fin 4096) (j : Fin 20) :
    val_main_v65 (F := Ideal) a0 a1 a2 a3 a4 a5 a6 a7 a8 (ix2 i j) = Cert.Row.muy (Cert.Args.wts a2 a3 a5 a7 a8) (Cert.Args.hrow a1 i) (Cert.Args.prow a0 a1 a4 a6 i) j := by
  rw [val_main_v65_apply]
  have e : idx_main_v65 (ix2 i j) = ix2 i (⟨40 + j.val, by omega⟩ : Fin 60) := by idx2
  rw [e, ref_gmm]
  rfl

/-- The predicted first coordinate: Σ_j pi j · mux j. -/
theorem ref_xp (i : Fin 4096) :
    val_main_v74 (F := Ideal) a0 a1 a2 a3 a4 a5 a6 a7 a8 (ix2 i 0) = Cert.Row.xp (Cert.Args.wts a2 a3 a5 a7 a8) (Cert.Args.hrow a1 i) (Cert.Args.prow a0 a1 a4 a6 i) := by
  rw [val_main_v74_apply]
  have e0 : idx_main_v74 (ix2 i (0 : Fin 1)) = ix1 i := by idx1
  rw [e0, val_main_v73_apply, val_main_cst_8_apply, Ideal.ofBits_def, Ideal.ofBits_zero_f32, zero_add]
  refine Finset.sum_congr rfl fun k _ => ?_
  have e : idx_main_v73 (ix1 i) k = ix2 i k := by idx2
  rw [e, val_main_v72_apply, ref_pi, ref_mux]
  rfl

/-- The predicted second coordinate: Σ_j pi j · muy j. -/
theorem ref_yp (i : Fin 4096) :
    val_main_v77 (F := Ideal) a0 a1 a2 a3 a4 a5 a6 a7 a8 (ix2 i 0) = Cert.Row.yp (Cert.Args.wts a2 a3 a5 a7 a8) (Cert.Args.hrow a1 i) (Cert.Args.prow a0 a1 a4 a6 i) := by
  rw [val_main_v77_apply]
  have e0 : idx_main_v77 (ix2 i (0 : Fin 1)) = ix1 i := by idx1
  rw [e0, val_main_v76_apply, val_main_cst_9_apply, Ideal.ofBits_def, Ideal.ofBits_zero_f32, zero_add]
  refine Finset.sum_congr rfl fun k _ => ?_
  have e : idx_main_v76 (ix1 i) k = ix2 i k := by idx2
  rw [e, val_main_v75_apply, ref_pi, ref_muy]
  rfl

end Cert.ReferenceIdeal.Rows

end
-- ==== Proof.lean ====
/-
  The kernel's program — a recurrent cell with a mixture-density output layer, its gate, candidate, output and
  mixture products and the whole elementwise chain in one region tiled over the batch, 512 rows per grid point —
  against the plain host program computing the same cell on all 4096 rows at once.

  Frames.  Both printed forms of the kernel's program are host operations, the region, and two concatenations; the
  body loads its eight input blocks whole, stores one whole block into each of seven outputs and keeps nothing, so the
  region runs at every grid point and the nine argument arrays, which nothing writes, end as launched
  (Proof/FrameK.lean, Proof/FrameKI.lean).  The host program's frame is its run with the results dropped.

  Values, on the extended reals.  Every output at batch row i depends on row i of the previous state and row i of the
  input projection only (Proof/RowSpec.lean).  The kernel's stored values at a block row are that row function of the
  loaded blocks (Proof/KPay.lean), a block row p of grid point t is row 512·t + p of the arrays and the weights are
  whole (Proof/Entry.lean), so the seven output arrays are the row function at every row (Proof/Arrays.lean); the host
  program's stages are the same row function (Proof/RefRows.lean) — the matrix products as the same sums, the host's
  1/(1 + exp(−x)) the kernel's logistic, the clamp the same max and min against the same two literals, a change of
  float format the identity.  Both programs end by the same two concatenations of those arrays (Proof/Tail.lean).
  The input projection (an embedding row plus a small product) is computed by the same host operations in both
  programs and is never opened.  No finiteness is used: the two sides are the same expression of the inputs.
-/
import proofs.«139136_j86492051407610_1_alg».proof.Defs
import proofs.«139136_j86492051407610_1_alg».proof.Proof.Gen.Kernel
import proofs.«139136_j86492051407610_1_alg».proof.Proof.Gen.KernelIdeal
import proofs.«139136_j86492051407610_1_alg».proof.Proof.Gen.ReferenceIdeal
import proofs.«139136_j86492051407610_1_alg».proof.Proof.Gen.Pre_finite_inputs
import proofs.«139136_j86492051407610_1_alg».proof.Proof.RunP
import proofs.«139136_j86492051407610_1_alg».proof.Proof.ReadP
import proofs.«139136_j86492051407610_1_alg».proof.Proof.FrameK
import proofs.«139136_j86492051407610_1_alg».proof.Proof.FrameKI
import proofs.«139136_j86492051407610_1_alg».proof.Proof.Tail
import proofs.«139136_j86492051407610_1_alg».proof.Proof.Arrays
import proofs.«139136_j86492051407610_1_alg».proof.Proof.RefRows
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The seven output arrays of the two programs agree -/

section Arrays

variable (m : (ℓ : Loc Cert.KernelIdeal.nD Cert.KernelIdeal.τ Cert.KernelIdeal.sig) → Buf (Elt Ideal) ℓ) (c : Dev Cert.KernelIdeal.nD)

theorem arr_o : ((Cert.KernelIdeal.Fr.dats m 0 c).arrAt 8 Cert.KernelIdeal.cfg0.N : Cert.KernelIdeal.S4096x1024.Idx → EReal)
    = Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  funext idx
  obtain ⟨i, j, rfl⟩ : ∃ (i : Fin 4096) (j : Fin 1024), idx = ix2 i j := ⟨idx 0, idx 1, eq_ix2 idx⟩
  exact (Cert.KernelIdeal.Arr.final_o m c i j).trans (Cert.ReferenceIdeal.Rows.ref_o _ _ _ _ _ _ _ _ _ i j).symm

theorem arr_pi : ((Cert.KernelIdeal.Fr.dats m 0 c).arrAt 9 Cert.KernelIdeal.cfg0.N : Cert.KernelIdeal.S4096x20.Idx → EReal)
    = Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext idx
  obtain ⟨i, j, rfl⟩ : ∃ (i : Fin 4096) (j : Fin 20), idx = ix2 i j := ⟨idx 0, idx 1, eq_ix2 idx⟩
  exact (Cert.KernelIdeal.Arr.final_pi m c i j).trans (Cert.ReferenceIdeal.Rows.ref_pi _ _ _ _ _ _ _ _ _ i j).symm

theorem arr_mux : ((Cert.KernelIdeal.Fr.dats m 0 c).arrAt 10 Cert.KernelIdeal.cfg0.N : Cert.KernelIdeal.S4096x20.Idx → EReal)
    = Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext idx
  obtain ⟨i, j, rfl⟩ : ∃ (i : Fin 4096) (j : Fin 20), idx = ix2 i j := ⟨idx 0, idx 1, eq_ix2 idx⟩
  exact (Cert.KernelIdeal.Arr.final_mux m c i j).trans (Cert.ReferenceIdeal.Rows.ref_mux _ _ _ _ _ _ _ _ _ i j).symm

theorem arr_muy : ((Cert.KernelIdeal.Fr.dats m 0 c).arrAt 11 Cert.KernelIdeal.cfg0.N : Cert.KernelIdeal.S4096x20.Idx → EReal)
    = Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext idx
  obtain ⟨i, j, rfl⟩ : ∃ (i : Fin 4096) (j : Fin 20), idx = ix2 i j := ⟨idx 0, idx 1, eq_ix2 idx⟩
  exact (Cert.KernelIdeal.Arr.final_muy m c i j).trans (Cert.ReferenceIdeal.Rows.ref_muy _ _ _ _ _ _ _ _ _ i j).symm

theorem arr_hnew : ((Cert.KernelIdeal.Fr.dats m 0 c).arrAt 14 Cert.KernelIdeal.cfg0.N : Cert.KernelIdeal.S4096x1024.Idx → EReal)
    = Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  funext idx
  obtain ⟨i, j, rfl⟩ : ∃ (i : Fin 4096) (j : Fin 1024), idx = ix2 i j := ⟨idx 0, idx 1, eq_ix2 idx⟩
  exact (Cert.KernelIdeal.Arr.final_hnew m c i j).trans (Cert.ReferenceIdeal.Rows.ref_hnew _ _ _ _ _ _ _ _ _ i j).symm

theorem arr_xp : ((Cert.KernelIdeal.Fr.dats m 0 c).arrAt 12 Cert.KernelIdeal.cfg0.N : Cert.KernelIdeal.S4096x1.Idx → EReal)
    = Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext idx
  obtain ⟨i, j, rfl⟩ : ∃ (i : Fin 4096) (j : Fin 1), idx = ix2 i j := ⟨idx 0, idx 1, eq_ix2 idx⟩
  obtain rfl : j = 0 := Subsingleton.elim _ _
  exact (Cert.KernelIdeal.Arr.final_xp m c i).trans (Cert.ReferenceIdeal.Rows.ref_xp _ _ _ _ _ _ _ _ _ i).symm

theorem arr_yp : ((Cert.KernelIdeal.Fr.dats m 0 c).arrAt 13 Cert.KernelIdeal.cfg0.N : Cert.KernelIdeal.S4096x1.Idx → EReal)
    = Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext idx
  obtain ⟨i, j, rfl⟩ : ∃ (i : Fin 4096) (j : Fin 1), idx = ix2 i j := ⟨idx 0, idx 1, eq_ix2 idx⟩
  obtain rfl : j = 0 := Subsingleton.elim _ _
  exact (Cert.KernelIdeal.Arr.final_yp m c i).trans (Cert.ReferenceIdeal.Rows.ref_yp _ _ _ _ _ _ _ _ _ i).symm

/-- The kernel program's first result is the host program's, of the same arguments. -/
theorem result0_eq :
    Pipeline.afterTail₀ Cert.KernelIdeal.cfgs (Cert.KernelIdeal.Fr.dats m) 0 (Cert.KernelIdeal.Fr.V0 m) [Cert.KernelIdeal.Gen.hostOps1] c Cert.KernelIdeal.main_v23
      = Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Tail.result0, arr_o, arr_pi, arr_mux, arr_muy, arr_xp, arr_yp]
  rfl

/-- And so is its second. -/
theorem result1_eq :
    Pipeline.afterTail₀ Cert.KernelIdeal.cfgs (Cert.KernelIdeal.Fr.dats m) 0 (Cert.KernelIdeal.Fr.V0 m) [Cert.KernelIdeal.Gen.hostOps1] c Cert.KernelIdeal.main_v24
      = Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Tail.result1, arr_hnew, arr_xp, arr_yp]
  rfl

end Arrays

/-! ## The claims -/

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The kernel program's run with its two results named: what the two concatenations leave. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v23) = Pipeline.afterTail₀ Cert.KernelIdeal.cfgs (Cert.KernelIdeal.Fr.dats m) 0 (Cert.KernelIdeal.Fr.V0 m) [Cert.KernelIdeal.Gen.hostOps1] c Cert.KernelIdeal.main_v23
      ∧ r.2.mem ((c.tc : Thread Cert.KernelIdeal.nD Cert.KernelIdeal.τ).loc Cert.KernelIdeal.main_v24) = Pipeline.afterTail₀ Cert.KernelIdeal.cfgs (Cert.KernelIdeal.Fr.dats m) 0 (Cert.KernelIdeal.Fr.V0 m) [Cert.KernelIdeal.Gen.hostOps1] c Cert.KernelIdeal.main_v24
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h c => ⟨((h c).2 Cert.KernelIdeal.main_v23 (Pipeline.mem_restRefs_of Cert.KernelIdeal.main_v23 (by decide) (by decide))), ((h c).2 Cert.KernelIdeal.main_v24 (Pipeline.mem_restRefs_of Cert.KernelIdeal.main_v24 (by decide) (by decide))),
    (((h c).2 Cert.KernelIdeal.main_arg0 (Pipeline.mem_restRefs_of Cert.KernelIdeal.main_arg0 (by decide) (by decide))).trans (Cert.KernelIdeal.Fr.W_main_arg0 m (Cert.KernelIdeal.Fr.dats m) c)),
    (((h c).2 Cert.KernelIdeal.main_arg1 (Pipeline.mem_restRefs_of Cert.KernelIdeal.main_arg1 (by decide) (by decide))).trans (Cert.KernelIdeal.Fr.W_main_arg1 m (Cert.KernelIdeal.Fr.dats m) c)),
    (((h c).2 Cert.KernelIdeal.main_arg2 (Pipeline.mem_restRefs_of Cert.KernelIdeal.main_arg2 (by decide) (by decide))).trans (Cert.KernelIdeal.Fr.W_main_arg2 m (Cert.KernelIdeal.Fr.dats m) c)),
    (((h c).2 Cert.KernelIdeal.main_arg3 (Pipeline.mem_restRefs_of Cert.KernelIdeal.main_arg3 (by decide) (by decide))).trans (Cert.KernelIdeal.Fr.W_main_arg3 m (Cert.KernelIdeal.Fr.dats m) c)),
    (((h c).2 Cert.KernelIdeal.main_arg4 (Pipeline.mem_restRefs_of Cert.KernelIdeal.main_arg4 (by decide) (by decide))).trans (Cert.KernelIdeal.Fr.W_main_arg4 m (Cert.KernelIdeal.Fr.dats m) c)),
    (((h c).2 Cert.KernelIdeal.main_arg5 (Pipeline.mem_restRefs_of Cert.KernelIdeal.main_arg5 (by decide) (by decide))).trans (Cert.KernelIdeal.Fr.W_main_arg5 m (Cert.KernelIdeal.Fr.dats m) c)),
    (((h c).2 Cert.KernelIdeal.main_arg6 (Pipeline.mem_restRefs_of Cert.KernelIdeal.main_arg6 (by decide) (by decide))).trans (Cert.KernelIdeal.Fr.W_main_arg6 m (Cert.KernelIdeal.Fr.dats m) c)),
    (((h c).2 Cert.KernelIdeal.main_arg7 (Pipeline.mem_restRefs_of Cert.KernelIdeal.main_arg7 (by decide) (by decide))).trans (Cert.KernelIdeal.Fr.W_main_arg7 m (Cert.KernelIdeal.Fr.dats m) c)),
    (((h c).2 Cert.KernelIdeal.main_arg8 (Pipeline.mem_restRefs_of Cert.KernelIdeal.main_arg8 (by decide) (by decide))).trans (Cert.KernelIdeal.Fr.W_main_arg8 m (Cert.KernelIdeal.Fr.dats m) c))⟩) (Cert.KernelIdeal.Fr.run_main m ρ)

theorem algebraic : Cert.algebraic_KernelIdeal_ReferenceIdeal := by
  intro m ρ m' ρ' _ hagree
  refine ⟨_, _, run_ki m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v78_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (result0_eq m c).symm
  · rw [Cert.ReferenceIdeal.Read.val_main_v79_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (result1_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
